-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x50000x16x1 : Shape := ⟨4, ![1, 50000, 16, 1]⟩
abbrev S2x50000x16 : Shape := ⟨3, ![2, 50000, 16]⟩
abbrev S256x4 : Shape := ⟨2, ![256, 4]⟩
abbrev S16 : Shape := ⟨1, ![16]⟩
abbrev S_ : Shape := ⟨0, ![]⟩

class Facts : Prop where
  bcast_S_S1x50000x16x1 : S_.BroadcastsInDim S1x50000x16x1 (![] : Fin 0 → Fin S1x50000x16x1.rank)
  reducesTo_S1x50000x16x1_S_d0_1_2_3 : S1x50000x16x1.ReducesTo [0, 1, 2, 3] S_
  h_S_ : 0 < S_.numel
  bcast_S_S2x50000x16 : S_.BroadcastsInDim S2x50000x16 (![] : Fin 0 → Fin S2x50000x16.rank)
  reducesTo_S2x50000x16_S_d0_1_2 : S2x50000x16.ReducesTo [0, 1, 2] S_
  bcast_S_S256x4 : S_.BroadcastsInDim S256x4 (![] : Fin 0 → Fin S256x4.rank)
  reducesTo_S256x4_S_d0_1 : S256x4.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S1x50000x16x1 .f32) (main_arg1 : FVec F S2x50000x16 .f32) (main_arg2 : FVec F S256x4 .f32) (main_arg3 : FVec F S16 .f32) (main_arg4 : FVec F S16 .f32) : IVec S_ 1 :=
  let main_v0 : FVec F S1x50000x16x1 .f32 := Host.absf main_arg0
  let main_cst : FVec F S_ .f32 := constant S_ .f32 0x7F800000#32
  let main_v1 : FVec F S1x50000x16x1 .f32 := broadcastInDim S1x50000x16x1 ![] bcast_S_S1x50000x16x1 main_cst
  let main_v2 : IVec S1x50000x16x1 1 := cmpf .olt main_v0 main_v1
  let main_c : IVec S_ 1 := constantI S_ 1 1#1
  let main_v3 : IVec S_ 1 := (fun x v => Host.reduce IntOp.andi x v reducesTo_S1x50000x16x1_S_d0_1_2_3 h_S_) main_v2 main_c
  let main_v4 : FVec F S2x50000x16 .f32 := Host.absf main_arg1
  let main_cst_0 : FVec F S_ .f32 := constant S_ .f32 0x7F800000#32
  let main_v5 : FVec F S2x50000x16 .f32 := broadcastInDim S2x50000x16 ![] bcast_S_S2x50000x16 main_cst_0
  let main_v6 : IVec S2x50000x16 1 := cmpf .olt main_v4 main_v5
  let main_c_1 : IVec S_ 1 := constantI S_ 1 1#1
  let main_v7 : IVec S_ 1 := (fun x v => Host.reduce IntOp.andi x v reducesTo_S2x50000x16_S_d0_1_2 h_S_) main_v6 main_c_1
  let main_v8 : IVec S_ 1 := andi main_v3 main_v7
  let main_v9 : FVec F S256x4 .f32 := Host.absf main_arg2
  let main_cst_2 : FVec F S_ .f32 := constant S_ .f32 0x7F800000#32
  let main_v10 : FVec F S256x4 .f32 := broadcastInDim S256x4 ![] bcast_S_S256x4 main_cst_2
  let main_v11 : IVec S256x4 1 := cmpf .olt main_v9 main_v10
  let main_c_3 : IVec S_ 1 := constantI S_ 1 1#1
  let main_v12 : IVec S_ 1 := (fun x v => Host.reduce IntOp.andi x v reducesTo_S256x4_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Kernel.lean ====
abbrev S1x50000x16x1 : Shape := ⟨4, ![1, 50000, 16, 1]⟩
abbrev S2x50000x16 : Shape := ⟨3, ![2, 50000, 16]⟩
abbrev S256x4 : Shape := ⟨2, ![256, 4]⟩
abbrev S16 : Shape := ⟨1, ![16]⟩
abbrev S256x1 : Shape := ⟨2, ![256, 1]⟩
abbrev S256 : Shape := ⟨1, ![256]⟩
abbrev S1x256 : Shape := ⟨2, ![1, 256]⟩
abbrev S3x256 : Shape := ⟨2, ![3, 256]⟩
abbrev S1x16x1 : Shape := ⟨3, ![1, 16, 1]⟩
abbrev S1x1x50000x256 : Shape := ⟨4, ![1, 1, 50000, 256]⟩
abbrev S1x400x16x1 : Shape := ⟨4, ![1, 400, 16, 1]⟩
abbrev S1x400x16 : Shape := ⟨3, ![1, 400, 16]⟩
abbrev S1x1x400x256 : Shape := ⟨4, ![1, 1, 400, 256]⟩
abbrev S400x16 : Shape := ⟨2, ![400, 16]⟩
abbrev S400x1 : Shape := ⟨2, ![400, 1]⟩
abbrev S1x1x256 : Shape := ⟨3, ![1, 1, 256]⟩
abbrev S400x16x1 : Shape := ⟨3, ![400, 16, 1]⟩
abbrev S400x16x256 : Shape := ⟨3, ![400, 16, 256]⟩
abbrev S400x256 : Shape := ⟨2, ![400, 256]⟩
abbrev S400x1x256 : Shape := ⟨3, ![400, 1, 256]⟩

abbrev nBuf : Space → Nat
  | .hbm => 21
  | .vmem => 9
  | .smem => 0
  | _ => 0

abbrev bufTy : (tb : Table) → Fin (tcTables nBuf tb) → BufTy
  | .hbm, ⟨0, _⟩ => ⟨S1x50000x16x1, .f32⟩
  | .hbm, ⟨1, _⟩ => ⟨S2x50000x16, .f32⟩
  | .hbm, ⟨2, _⟩ => ⟨S256x4, .f32⟩
  | .hbm, ⟨3, _⟩ => ⟨S16, .f32⟩
  | .hbm, ⟨4, _⟩ => ⟨S16, .f32⟩
  | .hbm, ⟨5, _⟩ => ⟨S256x1, .f32⟩
  | .hbm, ⟨6, _⟩ => ⟨S256, .f32⟩
  | .hbm, ⟨7, _⟩ => ⟨S256x1, .f32⟩
  | .hbm, ⟨8, _⟩ => ⟨S256, .f32⟩
  | .hbm, ⟨9, _⟩ => ⟨S256x1, .f32⟩
  | .hbm, ⟨10, _⟩ => ⟨S256, .f32⟩
  | .hbm, ⟨11, _⟩ => ⟨S256, .f32⟩
  | .hbm, ⟨12, _⟩ => ⟨S256x1, .f32⟩
  | .hbm, ⟨13, _⟩ => ⟨S256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S3x256, .f32⟩
  | .hbm, ⟨18, _⟩ => ⟨S1x16x1, .f32⟩
  | .hbm, ⟨19, _⟩ => ⟨S1x16x1, .f32⟩
  | .hbm, ⟨20, _⟩ => ⟨S1x1x50000x256, .f32⟩
  | .local _ .vmem, ⟨0, _⟩ => ⟨S1x400x16x1, .f32⟩
  | .local _ .vmem, ⟨1, _⟩ => ⟨S1x400x16x1, .f32⟩
  | .local _ .vmem, ⟨2, _⟩ => ⟨S1x400x16, .f32⟩
  | .local _ .vmem, ⟨3, _⟩ => ⟨S1x400x16, .f32⟩
  | .local _ .vmem, ⟨4, _⟩ => ⟨S3x256, .f32⟩
  | .local _ .vmem, ⟨5, _⟩ => ⟨S1x16x1, .f32⟩
  | .local _ .vmem, ⟨6, _⟩ => ⟨S1x16x1, .f32⟩
  | .local _ .vmem, ⟨7, _⟩ => ⟨S1x1x400x256, .f32⟩
  | .local _ .vmem, ⟨8, _⟩ => ⟨S1x1x400x256, .f32⟩
  | _, _ => ⟨S1x50000x16x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![125], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S1x400x16x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x400x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x400x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S256x4_S256x1_0_0 : S256x4.Slices ![0, 0] S256x1
  shapeCasts_S256x1_S256 : S256x1.ShapeCasts S256
  slices_S256x4_S256x1_0_1 : S256x4.Slices ![0, 1] S256x1
  slices_S256x4_S256x1_0_2 : S256x4.Slices ![0, 2] S256x1
  slices_S256x4_S256x1_0_3 : S256x4.Slices ![0, 3] S256x1
  bcast_S256_S1x256_1 : S256.BroadcastsInDim S1x256 (![1] : Fin 1 → Fin S1x256.rank)
  concatenates_S1x256_S1x256_S1x256_S3x256_d0 : Shape.Concatenates [S1x256, S1x256, S1x256] S3x256 0
  shapeCasts_S16_S1x16x1 : S16.ShapeCasts S1x16x1
  inb_S1x400x16x1_S1x400x16x1_0_0_0_0 : ∀ a, (![0, 0, 0, 0] : Fin 4 → Nat) a + S1x400x16x1.size a ≤ S1x400x16x1.size a
  h_S1x400x16x1 : 0 < S1x400x16x1.numel
  shapeCasts_S1x400x16x1_S400x16 : S1x400x16x1.ShapeCasts S400x16
  inb_S1x400x16_S1x400x16_0_0_0 : ∀ a, (![0, 0, 0] : Fin 3 → Nat) a + S1x400x16.size a ≤ S1x400x16.size a
  h_S1x400x16 : 0 < S1x400x16.numel
  shapeCasts_S1x400x16_S400x16 : S1x400x16.ShapeCasts S400x16
  slices_S400x16_o0_0_S400x1 : S400x16.Slices ![0, 0] S400x1
  shapeCasts_S400x1_S400x1 : S400x1.ShapeCasts S400x1
  broadcasts_S400x1_S400x16 : S400x1.Broadcasts S400x16
  inb_S3x256_S3x256_0_0 : ∀ a, (![0, 0] : Fin 2 → Nat) a + S3x256.size a ≤ S3x256.size a
  h_S3x256 : 0 < S3x256.numel
  shapeCasts_S3x256_S3x256 : S3x256.ShapeCasts S3x256
  slices_S3x256_o0_0_S1x256 : S3x256.Slices ![0, 0] S1x256
  shapeCasts_S1x256_S256 : S1x256.ShapeCasts S256
  shapeCasts_S256_S1x1x256 : S256.ShapeCasts S1x1x256
  slices_S3x256_o1_0_S1x256 : S3x256.Slices ![1, 0] S1x256
  slices_S3x256_o2_0_S1x256 : S3x256.Slices ![2, 0] S1x256
  shapeCasts_S400x16_S400x16x1 : S400x16.ShapeCasts S400x16x1
  shapeCasts_S400x16x1_S400x16x1 : S400x16x1.ShapeCasts S400x16x1
  broadcasts_S400x16x1_S400x16x256 : S400x16x1.Broadcasts S400x16x256
  broadcasts_S1x1x256_S400x16x256 : S1x1x256.Broadcasts S400x16x256
  reduces_S400x16x256_S400x256 : S400x16x256.Reduces [1] S400x256
  shapeCasts_S400x256_S400x1x256 : S400x256.ShapeCasts S400x1x256
  broadcasts_S400x1x256_S400x16x256 : S400x1x256.Broadcasts S400x16x256
  inb_S1x16x1_S1x16x1_0_0_0 : ∀ a, (![0, 0, 0] : Fin 3 → Nat) a + S1x16x1.size a ≤ S1x16x1.size a
  h_S1x16x1 : 0 < S1x16x1.numel
  shapeCasts_S1x16x1_S1x16x1 : S1x16x1.ShapeCasts S1x16x1
  broadcasts_S1x16x1_S400x16x256 : S1x16x1.Broadcasts S400x16x256
  shapeCasts_S400x1x256_S400x256 : S400x1x256.ShapeCasts S400x256
  inb_S1x1x400x256_S1x1x400x256_0_0_0_0 : ∀ a, (![0, 0, 0, 0] : Fin 4 → Nat) a + S1x1x400x256.size a ≤ S1x1x400x256.size a
  h_S1x1x400x256 : 0 < S1x1x400x256.numel
  shapeCasts_S1x1x400x256_S400x256 : S1x1x400x256.ShapeCasts S400x256
  shapeCasts_S400x256_S1x1x400x256 : S400x256.ShapeCasts S1x1x400x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x16x1.size a ≤ S1x50000x16x1.size a
  hwx0_0 : ∀ i : grid0.Coords, EltTy.bits .f32 = 32 ∨ (Rect.block (s := S1x50000x16x1) S1x400x16x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x400x16.size a ≤ S2x50000x16.size a
  hwx0_1 : ∀ i : grid0.Coords, EltTy.bits .f32 = 32 ∨ (Rect.block (s := S2x50000x16) S1x400x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256.size a ≤ S3x256.size a
  hwx0_2 : ∀ i : grid0.Coords, EltTy.bits .f32 = 32 ∨ (Rect.block (s := S3x256) S3x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16x1.size a ≤ S1x16x1.size a
  hwx0_3 : ∀ i : grid0.Coords, EltTy.bits .f32 = 32 ∨ (Rect.block (s := S1x16x1) S1x16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16x1.size a ≤ S1x16x1.size a
  hwx0_4 : ∀ i : grid0.Coords, EltTy.bits .f32 = 32 ∨ (Rect.block (s := S1x16x1) S1x16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x400x256.size a ≤ S1x1x50000x256.size a
  hwx0_5 : ∀ i : grid0.Coords, EltTy.bits .f32 = 32 ∨ (Rect.block (s := S1x1x50000x256) S1x1x400x256.size (cc0_transform_5 i) (hinb0_5 i)).WholeWords (EltTy.packing .f32)

variable [Facts₀]

abbrev win0_0 : Pipeline.Window sig grid0 :=
  Pipeline.Window.ofSpec (Memref.whole main_arg0) S1x400x16x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x400x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S3x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x1x400x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x50000x16x1 : Shape := ⟨4, ![1, 50000, 16, 1]⟩
abbrev S2x50000x16 : Shape := ⟨3, ![2, 50000, 16]⟩
abbrev S256x4 : Shape := ⟨2, ![256, 4]⟩
abbrev S16 : Shape := ⟨1, ![16]⟩
abbrev S1x50000x16 : Shape := ⟨3, ![1, 50000, 16]⟩
abbrev S50000x16 : Shape := ⟨2, ![50000, 16]⟩
abbrev S1x50000x1x1 : Shape := ⟨4, ![1, 50000, 1, 1]⟩
abbrev S1x50000x16x4 : Shape := ⟨4, ![1, 50000, 16, 4]⟩
abbrev S256x1x50000x16 : Shape := ⟨4, ![256, 1, 50000, 16]⟩
abbrev S1x256x50000x16 : Shape := ⟨4, ![1, 256, 50000, 16]⟩
abbrev S_ : Shape := ⟨0, ![]⟩
abbrev S1x256x50000 : Shape := ⟨3, ![1, 256, 50000]⟩
abbrev S1x256x50000x1 : Shape := ⟨4, ![1, 256, 50000, 1]⟩
abbrev S1x1x1x16 : Shape := ⟨4, ![1, 1, 1, 16]⟩
abbrev S1x1x50000x256 : Shape := ⟨4, ![1, 1, 50000, 256]⟩

abbrev nBuf : Space → Nat
  | .hbm => 57
  | .vmem => 0
  | .smem => 0
  | _ => 0

abbrev bufTy : (tb : Table) → Fin (tcTables nBuf tb) → BufTy
  | .hbm, ⟨0, _⟩ => ⟨S1x50000x16x1, .f32⟩
  | .hbm, ⟨1, _⟩ => ⟨S2x50000x16, .f32⟩
  | .hbm, ⟨2, _⟩ => ⟨S256x4, .f32⟩
  | .hbm, ⟨3, _⟩ => ⟨S16, .f32⟩
  | .hbm, ⟨4, _⟩ => ⟨S16, .f32⟩
  | .hbm, ⟨5, _⟩ => ⟨S1x50000x16, .f32⟩
  | .hbm, ⟨6, _⟩ => ⟨S50000x16, .f32⟩
  | .hbm, ⟨7, _⟩ => ⟨S1x50000x16x1, .f32⟩
  | .hbm, ⟨8, _⟩ => ⟨S1x50000x1x1, .f32⟩
  | .hbm, ⟨9, _⟩ => ⟨S1x50000x16x1, .f32⟩
  | .hbm, ⟨10, _⟩ => ⟨S1x50000x1x1, .f32⟩
  | .hbm, ⟨11, _⟩ => ⟨S1x50000x16x1, .f32⟩
  | .hbm, ⟨12, _⟩ => ⟨S1x50000x16x1, .f32⟩
  | .hbm, ⟨13, _⟩ => ⟨S1x50000x16x1, .f32⟩
  | .hbm, ⟨14, _⟩ => ⟨S1x50000x16x4, .f32⟩
  | .hbm, ⟨15, _⟩ => ⟨S256x1x50000x16, .f32⟩
  | .hbm, ⟨16, _⟩ => ⟨S1x256x50000x16, .f32⟩
  | .hbm, ⟨17, _⟩ => ⟨S_, .f32⟩
  | .hbm, ⟨18, _⟩ => ⟨S1x256x50000, .f32⟩
  | .hbm, ⟨19, _⟩ => ⟨S1x256x50000x1, .f32⟩
  | .hbm, ⟨20, _⟩ => ⟨S_, .f32⟩
  | .hbm, ⟨21, _⟩ => ⟨S1x256x50000x1, .f32⟩
  | .hbm, ⟨22, _⟩ => ⟨S1x256x50000x1, .f32⟩
  | .hbm, ⟨23, _⟩ => ⟨S1x256x50000x16, .f32⟩
  | .hbm, ⟨24, _⟩ => ⟨S1x256x50000x16, .f32⟩
  | .hbm, ⟨25, _⟩ => ⟨S1x256x50000x16, .f32⟩
  | .hbm, ⟨26, _⟩ => ⟨S_, .f32⟩
  | .hbm, ⟨27, _⟩ => ⟨S1x256x50000, .f32⟩
  | .hbm, ⟨28, _⟩ => ⟨S1x256x50000x1, .f32⟩
  | .hbm, ⟨29, _⟩ => ⟨S_, .f32⟩
  | .hbm, ⟨30, _⟩ => ⟨S1x256x50000x1, .f32⟩
  | .hbm, ⟨31, _⟩ => ⟨S1x256x50000x1, .f32⟩
  | .hbm, ⟨32, _⟩ => ⟨S1x256x50000x16, .f32⟩
  | .hbm, ⟨33, _⟩ => ⟨S1x256x50000x16, .f32⟩
  | .hbm, ⟨34, _⟩ => ⟨S_, .f32⟩
  | .hbm, ⟨35, _⟩ => ⟨S1x256x50000x1, .f32⟩
  | .hbm, ⟨36, _⟩ => ⟨S1x256x50000x1, .f32⟩
  | .hbm, ⟨37, _⟩ => ⟨S1x256x50000x1, .f32⟩
  | .hbm, ⟨38, _⟩ => ⟨S1x256x50000x16, .f32⟩
  | .hbm, ⟨39, _⟩ => ⟨S1x256x50000x16, .f32⟩
  | .hbm, ⟨40, _⟩ => ⟨S1x1x1x16, .f32⟩
  | .hbm, ⟨41, _⟩ => ⟨S1x256x50000x16, .f32⟩
  | .hbm, ⟨42, _⟩ => ⟨S1x256x50000x16, .f32⟩
  | .hbm, ⟨43, _⟩ => ⟨S1x1x1x16, .f32⟩
  | .hbm, ⟨44, _⟩ => ⟨S1x256x50000x16, .f32⟩
  | .hbm, ⟨45, _⟩ => ⟨S1x256x50000x16, .f32⟩
  | .hbm, ⟨46, _⟩ => ⟨S_, .f32⟩
  | .hbm, ⟨47, _⟩ => ⟨S1x256x50000x16, .f32⟩
  | .hbm, ⟨48, _⟩ => ⟨S1x256x50000x16, .i1⟩
  | .hbm, ⟨49, _⟩ => ⟨S_, .f32⟩
  | .hbm, ⟨50, _⟩ => ⟨S1x256x50000x16, .f32⟩
  | .hbm, ⟨51, _⟩ => ⟨S1x256x50000x16, .f32⟩
  | .hbm, ⟨52, _⟩ => ⟨S1x256x50000x16, .f32⟩
  | .hbm, ⟨53, _⟩ => ⟨S_, .f32⟩
  | .hbm, ⟨54, _⟩ => ⟨S1x256x50000, .f32⟩
  | .hbm, ⟨55, _⟩ => ⟨S1x256x50000x1, .f32⟩
  | .hbm, ⟨56, _⟩ => ⟨S1x1x50000x256, .f32⟩
  | _, _ => ⟨S1x50000x16x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  slices_S2x50000x16_S1x50000x16_0_0_0 : S2x50000x16.Slices ![0, 0, 0] S1x50000x16
  shapeCasts_S1x50000x16_S50000x16 : S1x50000x16.ShapeCasts S50000x16
  shapeCasts_S50000x16_S1x50000x16x1 : S50000x16.ShapeCasts S1x50000x16x1
  slices_S1x50000x16x1_S1x50000x1x1_0_0_0_0 : S1x50000x16x1.Slices ![0, 0, 0, 0] S1x50000x1x1
  bcast_S1x50000x1x1_S1x50000x16x1_0_1_2_3 : S1x50000x1x1.BroadcastsInDim S1x50000x16x1 (![0, 1, 2, 3] : Fin 4 → Fin S1x50000x16x1.rank)
  concatenates_S1x50000x16x1_S1x50000x16x1_S1x50000x16x1_S1x50000x16x1_S1x50000x16x4_d3 : Shape.Concatenates [S1x50000x16x1, S1x50000x16x1, S1x50000x16x1, S1x50000x16x1] S1x50000x16x4 3
  transposes_S256x1x50000x16_S1x256x50000x16_1_0_2_3 : S256x1x50000x16.Transposes [1, 0, 2, 3] S1x256x50000x16
  reducesTo_S1x256x50000x16_S1x256x50000_d3 : S1x256x50000x16.ReducesTo [3] S1x256x50000
  h_S_ : 0 < S_.numel
  bcast_S1x256x50000_S1x256x50000x1_0_1_2 : S1x256x50000.BroadcastsInDim S1x256x50000x1 (![0, 1, 2] : Fin 3 → Fin S1x256x50000x1.rank)
  bcast_S_S1x256x50000x1 : S_.BroadcastsInDim S1x256x50000x1 (![] : Fin 0 → Fin S1x256x50000x1.rank)
  bcast_S1x256x50000x1_S1x256x50000x16_0_1_2_3 : S1x256x50000x1.BroadcastsInDim S1x256x50000x16 (![0, 1, 2, 3] : Fin 4 → Fin S1x256x50000x16.rank)
  bcast_S16_S1x1x1x16_3 : S16.BroadcastsInDim S1x1x1x16 (![3] : Fin 1 → Fin S1x1x1x16.rank)
  bcast_S1x1x1x16_S1x256x50000x16_0_1_2_3 : S1x1x1x16.BroadcastsInDim S1x256x50000x16 (![0, 1, 2, 3] : Fin 4 → Fin S1x256x50000x16.rank)
  bcast_S_S1x256x50000x16 : S_.BroadcastsInDim S1x256x50000x16 (![] : Fin 0 → Fin S1x256x50000x16.rank)
  transposes_S1x256x50000x1_S1x1x50000x256_0_3_2_1 : S1x256x50000x1.Transposes [0, 3, 2, 1] S1x1x50000x256
  dot_S256x4_S1x50000x16x4_S256x1x50000x16_1_3_0_012_n_n_wf : DotDims.WF S256x4 S1x50000x16x4 S256x1x50000x16 [1] [3] [0] [0, 1, 2] [] []

variable [Facts₀]

def dot_S256x4_S1x50000x16x4_S256x1x50000x16_1_3_0_012_n_n : DotDims S256x4 S1x50000x16x4 S256x1x50000x16 where
  lhsContracting := [1]
  rhsContracting := [3]
  lhsNonContracting := [0]
  rhsNonContracting := [0, 1, 2]
  lhsBatch := []
  rhsBatch := []
  wf := dot_S256x4_S1x50000x16x4_S256x1x50000x16_1_3_0_012_n_n_wf

class Facts : Prop extends Facts₀ where

variable [Facts]
-- ==== Proof.FrameK.lean ====
/-
  The run of `Kernel`'s @main, at any float instance: fifteen host operations (the three weight rows sliced, the two
  middle ones added, the rows stacked; γ and β recast), then one region over 125 grid points whose body loads the
  point's blocks, computes, and stores the output block whole.

  What the region finds in each array is the fold of the host operations over the launch memory (`V`); no host
  operation writes an argument (`V_main_argK`).  At every point the input windows' staging buffers hold their blocks
  of those arrays, and the body leaves in the output's buffer one function of the five input blocks (`outBlock`).
  From that the pipeline's run ends with every array of the pipeline at what the blocks written back make of it,
  every other buffer as the region found it, and in particular the five arguments unchanged (`frame`).
-/
import proofs.«172504_j29317446762758_1_alg».proof.Proof.Gen.Kernel.Launch
import proofs.«172504_j29317446762758_1_alg».proof.Proof.Gen.Kernel.Skeleton
import proofs.«172504_j29317446762758_1_alg».proof.Proof.Gen.Kernel.Points
import Idealize.ShloMosaic.Lib.Pipeline.FrameBody
import Idealize.ShloMosaic.Lib.Ring
import Idealize.ShloMosaic.Lib.Tactic

-- membership in a rectangle of these extents is checked structurally, once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the fifteen host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_arg (a : Ref sig .tc) (ha : a = main_arg0 ∨ a = main_arg1 ∨ a = main_arg2 ∨ a = main_arg3 ∨ a = main_arg4) (c : Dev nD) :
    V m c a = m ((c : Thread nD τ).loc a) :=
  StableHlo.after_of_forall_not_mem (b := Proc.devRef .tc a) _ _ (List.forall_iff_forall_mem.mp (by
    simp only [hostOps0, List.Forall, StableHlo.nullary_writes, StableHlo.unary_writes, StableHlo.binary_writes,
      StableHlo.reshape_writes, StableHlo.nary_writes, Finset.mem_singleton]
    rcases ha with rfl | rfl | rfl | rfl | rfl <;>
      (repeat' apply And.intro) <;> exact StableHlo.devRef_ne_of_ne (by decide)))

theorem V_main_arg0 (c : Dev nD) : V m c main_arg0 = m ((c : Thread nD τ).loc main_arg0) := V_arg m _ (.inl rfl) c
theorem V_main_arg1 (c : Dev nD) : V m c main_arg1 = m ((c : Thread nD τ).loc main_arg1) := V_arg m _ (.inr (.inl rfl)) c
theorem V_main_arg2 (c : Dev nD) : V m c main_arg2 = m ((c : Thread nD τ).loc main_arg2) := V_arg m _ (.inr (.inr (.inl rfl))) c
theorem V_main_arg3 (c : Dev nD) : V m c main_arg3 = m ((c : Thread nD τ).loc main_arg3) := V_arg m _ (.inr (.inr (.inr (.inl rfl)))) c
theorem V_main_arg4 (c : Dev nD) : V m c main_arg4 = m ((c : Thread nD τ).loc main_arg4) := V_arg m _ (.inr (.inr (.inr (.inr rfl)))) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or the
    block index has not moved since it was fetched, for any proof data over these arrays whose body leaves the
    block in place: window by window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments unchanged, from the run -/

/-- From a run to the pipeline's post — every array of the pipeline at what its proof data computes, every other
    unscoped buffer as the region found it — the five arguments end as launched: `x` and the coordinates are staged
    inputs, which the pipeline only reads; `W`, `γ`, `β` are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses: every load and the one store take a whole buffer -/

abbrev rX : Rect S1x400x16x1 := Rect.unit (s := S1x400x16x1) ![0, 0, 0, 0] S1x400x16x1.size inb_S1x400x16x1_S1x400x16x1_0_0_0_0
abbrev rC : Rect S1x400x16 := Rect.unit (s := S1x400x16) ![0, 0, 0] S1x400x16.size inb_S1x400x16_S1x400x16_0_0_0
abbrev rW : Rect S3x256 := Rect.unit (s := S3x256) ![0, 0] S3x256.size inb_S3x256_S3x256_0_0
abbrev rG : Rect S1x16x1 := Rect.unit (s := S1x16x1) ![0, 0, 0] S1x16x1.size inb_S1x16x1_S1x16x1_0_0_0
abbrev rO : Rect S1x1x400x256 := Rect.unit (s := S1x1x400x256) ![0, 0, 0, 0] S1x1x400x256.size inb_S1x1x400x256_S1x1x400x256_0_0_0_0

/-! ## What the body leaves in the output window's buffer -/

/-- The stored value as a function of the five loaded blocks. -/
def stored (x0 : Vec F S1x400x16x1 .f32) (x1 : Vec F S1x400x16 .f32) (x2 : Vec F S3x256 .f32) (x3 x4 : Vec F S1x16x1 .f32) :
    FVec F S1x1x400x256 .f32 :=
  k0_pay1 (k0_pay2 (View.ld x0 rX) (View.ld x1 rC) (View.ld x2 rW)) (k0_pay3 (View.ld x0 rX) (View.ld x1 rC) (View.ld x2 rW))
    (k0_pay4 (View.ld x0 rX) (View.ld x1 rC) (View.ld x2 rW)) (View.ld x3 rG) (View.ld x4 rG)

/-- The output buffer after the body: its one store, of the whole block. -/
def outBlock (x0 : Vec F S1x400x16x1 .f32) (x1 : Vec F S1x400x16 .f32) (x2 : Vec F S3x256 .f32) (x3 x4 : Vec F S1x16x1 .f32) :
    Vec F S1x1x400x256 .f32 :=
  View.canon [⟨rO, stored x0 x1 x2 x3 x4⟩]

/-- The store covers the buffer. -/
theorem cover_out (p0 : Vec F S1x1x400x256 .f32) (y : S1x1x400x256.Idx) :
    ∃ pc ∈ ([⟨rO, p0⟩] : List (View.Piece (Elt F) S1x1x400x256 .f32)), y ∈ pc.1.set :=
  View.cover_of_tiled [⟨rO, p0⟩] S1x1x400x256.size (by rfl) y

/-! ## The body's triple -/

set_option maxHeartbeats 1000000 in
/-- The body on whole staging memrefs — the inputs' at contents `x0 … x4`, the output's at anything — runs to the
    continuation holding the inputs' as they were and the output's at `outBlock` of them. -/
theorem sound_kernel (c : Dev nD) (E : Set ℕ) (i : grid0.Coords)
    (arg1 : Memref sig .tc .vmem S1x400x16x1 .f32) (harg1 : arg1.IsWhole) (arg2 : Memref sig .tc .vmem S1x400x16 .f32) (harg2 : arg2.IsWhole)
    (arg3 : Memref sig .tc .vmem S3x256 .f32) (harg3 : arg3.IsWhole) (arg4 : Memref sig .tc .vmem S1x16x1 .f32) (harg4 : arg4.IsWhole)
    (arg5 : Memref sig .tc .vmem S1x16x1 .f32) (harg5 : arg5.IsWhole) (arg6 : Memref sig .tc .vmem S1x1x400x256 .f32) (harg6 : arg6.IsWhole)
    (x0 : Vec F S1x400x16x1 .f32) (x1 : Vec F S1x400x16 .f32) (x2 : Vec F S3x256 .f32) (x3 x4 : Vec F S1x16x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data of the pipeline on core `c`: the arrays as the region finds them; after the body at point `t` each
    input's buffer at its block and the output's at `outBlock` of the five input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (iblk m c 0 t) (iblk m c 1 t) (iblk m c 2 t) (iblk m c 3 t) (iblk m c 4 t) := by dsimp only [dats]

/-- Each input's current staging buffer holds its block at every point. -/
theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters every weakly fair execution of @main terminates, and every final state has
    every array of the pipeline at what the blocks written back make of it and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Fr

end
-- ==== Proof.FrameKI.lean ====
/-
  The run of `KernelIdeal`'s @main, at any float instance: fifteen host operations (the three weight rows sliced, the two
  middle ones added, the rows stacked; γ and β recast), then one region over 125 grid points whose body loads the
  point's blocks, computes, and stores the output block whole.

  What the region finds in each array is the fold of the host operations over the launch memory (`V`); no host
  operation writes an argument (`V_main_argK`).  At every point the input windows' staging buffers hold their blocks
  of those arrays, and the body leaves in the output's buffer one function of the five input blocks (`outBlock`).
  From that the pipeline's run ends with every array of the pipeline at what the blocks written back make of it,
  every other buffer as the region found it, and in particular the five arguments unchanged (`frame`).
-/
import proofs.«172504_j29317446762758_1_alg».proof.Proof.Gen.KernelIdeal.Launch
import proofs.«172504_j29317446762758_1_alg».proof.Proof.Gen.KernelIdeal.Skeleton
import proofs.«172504_j29317446762758_1_alg».proof.Proof.Gen.KernelIdeal.Points
import Idealize.ShloMosaic.Lib.Pipeline.FrameBody
import Idealize.ShloMosaic.Lib.Ring
import Idealize.ShloMosaic.Lib.Tactic

-- membership in a rectangle of these extents is checked structurally, once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the fifteen host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_arg (a : Ref sig .tc) (ha : a = main_arg0 ∨ a = main_arg1 ∨ a = main_arg2 ∨ a = main_arg3 ∨ a = main_arg4) (c : Dev nD) :
    V m c a = m ((c : Thread nD τ).loc a) :=
  StableHlo.after_of_forall_not_mem (b := Proc.devRef .tc a) _ _ (List.forall_iff_forall_mem.mp (by
    simp only [hostOps0, List.Forall, StableHlo.nullary_writes, StableHlo.unary_writes, StableHlo.binary_writes,
      StableHlo.reshape_writes, StableHlo.nary_writes, Finset.mem_singleton]
    rcases ha with rfl | rfl | rfl | rfl | rfl <;>
      (repeat' apply And.intro) <;> exact StableHlo.devRef_ne_of_ne (by decide)))

theorem V_main_arg0 (c : Dev nD) : V m c main_arg0 = m ((c : Thread nD τ).loc main_arg0) := V_arg m _ (.inl rfl) c
theorem V_main_arg1 (c : Dev nD) : V m c main_arg1 = m ((c : Thread nD τ).loc main_arg1) := V_arg m _ (.inr (.inl rfl)) c
theorem V_main_arg2 (c : Dev nD) : V m c main_arg2 = m ((c : Thread nD τ).loc main_arg2) := V_arg m _ (.inr (.inr (.inl rfl))) c
theorem V_main_arg3 (c : Dev nD) : V m c main_arg3 = m ((c : Thread nD τ).loc main_arg3) := V_arg m _ (.inr (.inr (.inr (.inl rfl)))) c
theorem V_main_arg4 (c : Dev nD) : V m c main_arg4 = m ((c : Thread nD τ).loc main_arg4) := V_arg m _ (.inr (.inr (.inr (.inr rfl)))) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or the
    block index has not moved since it was fetched, for any proof data over these arrays whose body leaves the
    block in place: window by window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments unchanged, from the run -/

/-- From a run to the pipeline's post — every array of the pipeline at what its proof data computes, every other
    unscoped buffer as the region found it — the five arguments end as launched: `x` and the coordinates are staged
    inputs, which the pipeline only reads; `W`, `γ`, `β` are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses: every load and the one store take a whole buffer -/

abbrev rX : Rect S1x400x16x1 := Rect.unit (s := S1x400x16x1) ![0, 0, 0, 0] S1x400x16x1.size inb_S1x400x16x1_S1x400x16x1_0_0_0_0
abbrev rC : Rect S1x400x16 := Rect.unit (s := S1x400x16) ![0, 0, 0] S1x400x16.size inb_S1x400x16_S1x400x16_0_0_0
abbrev rW : Rect S3x256 := Rect.unit (s := S3x256) ![0, 0] S3x256.size inb_S3x256_S3x256_0_0
abbrev rG : Rect S1x16x1 := Rect.unit (s := S1x16x1) ![0, 0, 0] S1x16x1.size inb_S1x16x1_S1x16x1_0_0_0
abbrev rO : Rect S1x1x400x256 := Rect.unit (s := S1x1x400x256) ![0, 0, 0, 0] S1x1x400x256.size inb_S1x1x400x256_S1x1x400x256_0_0_0_0

/-! ## What the body leaves in the output window's buffer -/

/-- The stored value as a function of the five loaded blocks. -/
def stored (x0 : Vec F S1x400x16x1 .f32) (x1 : Vec F S1x400x16 .f32) (x2 : Vec F S3x256 .f32) (x3 x4 : Vec F S1x16x1 .f32) :
    FVec F S1x1x400x256 .f32 :=
  k0_pay1 (k0_pay2 (View.ld x0 rX) (View.ld x1 rC) (View.ld x2 rW)) (k0_pay3 (View.ld x0 rX) (View.ld x1 rC) (View.ld x2 rW))
    (k0_pay4 (View.ld x0 rX) (View.ld x1 rC) (View.ld x2 rW)) (View.ld x3 rG) (View.ld x4 rG)

/-- The output buffer after the body: its one store, of the whole block. -/
def outBlock (x0 : Vec F S1x400x16x1 .f32) (x1 : Vec F S1x400x16 .f32) (x2 : Vec F S3x256 .f32) (x3 x4 : Vec F S1x16x1 .f32) :
    Vec F S1x1x400x256 .f32 :=
  View.canon [⟨rO, stored x0 x1 x2 x3 x4⟩]

/-- The store covers the buffer. -/
theorem cover_out (p0 : Vec F S1x1x400x256 .f32) (y : S1x1x400x256.Idx) :
    ∃ pc ∈ ([⟨rO, p0⟩] : List (View.Piece (Elt F) S1x1x400x256 .f32)), y ∈ pc.1.set :=
  View.cover_of_tiled [⟨rO, p0⟩] S1x1x400x256.size (by rfl) y

/-! ## The body's triple -/

set_option maxHeartbeats 1000000 in
/-- The body on whole staging memrefs — the inputs' at contents `x0 … x4`, the output's at anything — runs to the
    continuation holding the inputs' as they were and the output's at `outBlock` of them. -/
theorem sound_kernel (c : Dev nD) (E : Set ℕ) (i : grid0.Coords)
    (arg1 : Memref sig .tc .vmem S1x400x16x1 .f32) (harg1 : arg1.IsWhole) (arg2 : Memref sig .tc .vmem S1x400x16 .f32) (harg2 : arg2.IsWhole)
    (arg3 : Memref sig .tc .vmem S3x256 .f32) (harg3 : arg3.IsWhole) (arg4 : Memref sig .tc .vmem S1x16x1 .f32) (harg4 : arg4.IsWhole)
    (arg5 : Memref sig .tc .vmem S1x16x1 .f32) (harg5 : arg5.IsWhole) (arg6 : Memref sig .tc .vmem S1x1x400x256 .f32) (harg6 : arg6.IsWhole)
    (x0 : Vec F S1x400x16x1 .f32) (x1 : Vec F S1x400x16 .f32) (x2 : Vec F S3x256 .f32) (x3 x4 : Vec F S1x16x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data of the pipeline on core `c`: the arrays as the region finds them; after the body at point `t` each
    input's buffer at its block and the output's at `outBlock` of the five input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (iblk m c 0 t) (iblk m c 1 t) (iblk m c 2 t) (iblk m c 3 t) (iblk m c 4 t) := by dsimp only [dats]

/-- Each input's current staging buffer holds its block at every point. -/
theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters every weakly fair execution of @main terminates, and every final state has
    every array of the pipeline at what the blocks written back make of it and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Fr

end
-- ==== Proof.BlockReads.lean ====
/-
  Where each block of the region sits in its array, and what the host-computed arrays hold.

  At grid point `t` the blocks of `x`, of the coordinates and of the result are rows `400 t … 400 t + 399`; the
  coordinates' block lies in the first of the two planes; the stacked weight rows and the recast `γ`, `β` are whole
  arrays, the same at every point.  The stacked rows are: column 0 of `W`; column 1 plus column 2; column 3.
-/
import proofs.«172504_j29317446762758_1_alg».proof.Proof.FrameKI
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Blocks

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The index maps over the 125 grid points: `x`, the coordinates and the result move along their row axis with
    the point; every other block index is zero. -/
theorem idx_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 4) = 0 ∧ win0_5.index t (1 : Fin 4) = 0 ∧ win0_5.index t (2 : Fin 4) = t.val ∧ win0_5.index t (3 : Fin 4) = 0 :=
  (by decide +kernel : ∀ t : Fin grid0.N, _)

/-- Row `r` of point `t`'s block is row `400 t + r` of the array. -/
def rowOf (t : Fin cfg0.N) (r : Fin 400) : Fin 50000 :=
  ⟨t.val * 400 + r.val, by have h1 := t.isLt; have h2 := r.isLt; have h3 : cfg0.N = 125 := N_0; omega⟩

/-- The block of `x` at point `t`, entry (r, h). -/
theorem x_block (c : Dev nD) (t : Fin cfg0.N) (r : Fin 400) (h : Fin 16) :
    iblk m c 0 t (ix4 (0 : Fin 1) r h (0 : Fin 1)) = V m c main_arg0 (ix4 (0 : Fin 1) (rowOf t r) h (0 : Fin 1)) := by
  show V m c main_arg0 (((cfg0.win 0).blk t).view.emb (ix4 (0 : Fin 1) r h (0 : Fin 1))) = _
  refine congrArg _ (funext fun a => Fin.ext ?_)
  obtain ⟨e0, e1, e2, e3, -⟩ := idx_facts t
  match a with
  | ⟨0, _⟩ => show win0_0.index t (0 : Fin 4) * 1 + 1 * 0 = 0; omega
  | ⟨1, _⟩ => show win0_0.index t (1 : Fin 4) * 400 + 1 * r.val = t.val * 400 + r.val; omega
  | ⟨2, _⟩ => show win0_0.index t (2 : Fin 4) * 16 + 1 * h.val = h.val; omega
  | ⟨3, _⟩ => show win0_0.index t (3 : Fin 4) * 1 + 1 * 0 = 0; omega

/-- The block of the coordinates at point `t`, entry (r, h): the first plane. -/
theorem c_block (c : Dev nD) (t : Fin cfg0.N) (r : Fin 400) (h : Fin 16) :
    iblk m c 1 t (ix3 (0 : Fin 1) r h) = V m c main_arg1 (ix3 (0 : Fin 2) (rowOf t r) h) := by
  show V m c main_arg1 (((cfg0.win 1).blk t).view.emb (ix3 (0 : Fin 1) r h)) = _
  refine congrArg _ (funext fun a => Fin.ext ?_)
  obtain ⟨-, -, -, -, e0, e1, e2, -⟩ := idx_facts t
  match a with
  | ⟨0, _⟩ => show win0_1.index t (0 : Fin 3) * 1 + 1 * 0 = 0; omega
  | ⟨1, _⟩ => show win0_1.index t (1 : Fin 3) * 400 + 1 * r.val = t.val * 400 + r.val; omega
  | ⟨2, _⟩ => show win0_1.index t (2 : Fin 3) * 16 + 1 * h.val = h.val; omega

/-- The stacked weight rows' block is the whole array. -/
theorem w_block (c : Dev nD) (t : Fin cfg0.N) (k : Fin 3) (o : Fin 256) :
    iblk m c 2 t (ix2 k o) = V m c main_v12 (ix2 k o) := by
  show V m c main_v12 (((cfg0.win 2).blk t).view.emb (ix2 k o)) = _
  refine congrArg _ (funext fun a => Fin.ext ?_)
  obtain ⟨-, -, -, -, -, -, -, e0, e1, -⟩ := idx_facts t
  match a with
  | ⟨0, _⟩ => show win0_2.index t (0 : Fin 2) * 3 + 1 * k.val = k.val; omega
  | ⟨1, _⟩ => show win0_2.index t (1 : Fin 2) * 256 + 1 * o.val = o.val; omega

/-- The recast `γ`'s block is the whole array. -/
theorem g_block (c : Dev nD) (t : Fin cfg0.N) (h : Fin 16) :
    iblk m c 3 t (ix3 (0 : Fin 1) h (0 : Fin 1)) = V m c main_v13 (ix3 (0 : Fin 1) h (0 : Fin 1)) := by
  show V m c main_v13 (((cfg0.win 3).blk t).view.emb (ix3 (0 : Fin 1) h (0 : Fin 1))) = _
  refine congrArg _ (funext fun a => Fin.ext ?_)
  obtain ⟨-, -, -, -, -, -, -, -, -, e0, e1, e2, -⟩ := idx_facts t
  match a with
  | ⟨0, _⟩ => show win0_3.index t (0 : Fin 3) * 1 + 1 * 0 = 0; omega
  | ⟨1, _⟩ => show win0_3.index t (1 : Fin 3) * 16 + 1 * h.val = h.val; omega
  | ⟨2, _⟩ => show win0_3.index t (2 : Fin 3) * 1 + 1 * 0 = 0; omega

/-- The recast `β`'s block is the whole array. -/
theorem b_block (c : Dev nD) (t : Fin cfg0.N) (h : Fin 16) :
    iblk m c 4 t (ix3 (0 : Fin 1) h (0 : Fin 1)) = V m c main_v14 (ix3 (0 : Fin 1) h (0 : Fin 1)) := by
  show V m c main_v14 (((cfg0.win 4).blk t).view.emb (ix3 (0 : Fin 1) h (0 : Fin 1))) = _
  refine congrArg _ (funext fun a => Fin.ext ?_)
  obtain ⟨-, -, -, -, -, -, -, -, -, -, -, -, e0, e1, e2, -⟩ := idx_facts t
  match a with
  | ⟨0, _⟩ => show win0_4.index t (0 : Fin 3) * 1 + 1 * 0 = 0; omega
  | ⟨1, _⟩ => show win0_4.index t (1 : Fin 3) * 16 + 1 * h.val = h.val; omega
  | ⟨2, _⟩ => show win0_4.index t (2 : Fin 3) * 1 + 1 * 0 = 0; omega

/-! ## What the host operations leave in the three computed arrays -/

theorem pick0 {α : Type} (a b c : α) : (![a, b, c] : Fin 3 → α) 0 = a := rfl
theorem pick1 {α : Type} (a b c : α) : (![a, b, c] : Fin 3 → α) 1 = b := rfl
theorem pick2 {α : Type} (a b c : α) : (![a, b, c] : Fin 3 → α) 2 = c := rfl

/-- Column `k` of `W` as a vector of 256 entries (a slice [256, 1] recast). -/
abbrev col0 (W : S256x4.Idx → EReal) : S256.Idx → EReal :=
  shapeCast S256 (extractStridedSlice S256x1 ![0, 0] W slices_S256x4_S256x1_0_0) shapeCasts_S256x1_S256
abbrev col1 (W : S256x4.Idx → EReal) : S256.Idx → EReal :=
  shapeCast S256 (extractStridedSlice S256x1 ![0, 1] W slices_S256x4_S256x1_0_1) shapeCasts_S256x1_S256
abbrev col2 (W : S256x4.Idx → EReal) : S256.Idx → EReal :=
  shapeCast S256 (extractStridedSlice S256x1 ![0, 2] W slices_S256x4_S256x1_0_2) shapeCasts_S256x1_S256
abbrev col3 (W : S256x4.Idx → EReal) : S256.Idx → EReal :=
  shapeCast S256 (extractStridedSlice S256x1 ![0, 3] W slices_S256x4_S256x1_0_3) shapeCasts_S256x1_S256
/-- A vector of 256 entries as a row [1, 256]. -/
abbrev asRow (v : S256.Idx → EReal) : S1x256.Idx → EReal := broadcastInDim S1x256 ![1] bcast_S256_S1x256_1 v
/-- The three rows stacked: column 0; column 1 plus column 2; column 3. -/
abbrev stacked (W : S256x4.Idx → EReal) : S3x256.Idx → EReal :=
  concatenate S3x256 0 [⟨S1x256, asRow (col0 W)⟩, ⟨S1x256, asRow (addf (F := Ideal) (φ := .f32) (col1 W) (col2 W))⟩, ⟨S1x256, asRow (col3 W)⟩]
    concatenates_S1x256_S1x256_S1x256_S3x256_d0

/-- The region finds the stacked rows of `W` in the third window's array. -/
theorem V_v12 (c : Dev nD) : (V m c main_v12 : S3x256.Idx → EReal) = stacked (m ((c : Thread nD τ).loc main_arg2)) := by
  dsimp only [V, hostOps0]; after_results
  dsimp only [pick0, pick1, pick2]
  repeat (first
    | rw [StableHlo.unary_result] | rw [StableHlo.binary_result] | rw [StableHlo.reshape_result]
    | (rw [StableHlo.unary_result_ne]; rotate_left; decide)
    | (rw [StableHlo.binary_result_ne]; rotate_left; decide)
    | (rw [StableHlo.reshape_result_ne]; rotate_left; decide))
  rfl

/-- The region finds `γ` recast to [1, 16, 1] in the fourth window's array, -/
theorem V_v13 (c : Dev nD) : (V m c main_v13 : S1x16x1.Idx → EReal) = shapeCast S1x16x1 (m ((c : Thread nD τ).loc main_arg3)) shapeCasts_S16_S1x16x1 := by
  dsimp only [V, hostOps0]; after_results; rfl

/-- and `β` recast in the fifth's. -/
theorem V_v14 (c : Dev nD) : (V m c main_v14 : S1x16x1.Idx → EReal) = shapeCast S1x16x1 (m ((c : Thread nD τ).loc main_arg4)) shapeCasts_S16_S1x16x1 := by
  dsimp only [V, hostOps0]; after_results; rfl

/-! ## Those arrays read at an index -/

/-- A vector recast to [1, 16, 1] at (0, h, 0) is the vector at h. -/
theorem recast_apply (g : S16.Idx → EReal) (h : Fin 16) :
    shapeCast S1x16x1 g shapeCasts_S16_S1x16x1 (ix3 (0 : Fin 1) h (0 : Fin 1)) = g (ix1 h) :=
  shapeCast_apply g shapeCasts_S16_S1x16x1 (ix3 (0 : Fin 1) h (0 : Fin 1)) (ix1 h)
    (by rewrite [Shape.rowMajor_val_one, Shape.rowMajor_val_three]; show h.val = (0 * 16 + h.val) * 1 + 0; omega)

/-- A row made of a vector, at (0, o), is the vector at o. -/
theorem asRow_apply (v : S256.Idx → EReal) (o : Fin 256) : asRow v (ix2 (0 : Fin 1) o) = v (ix1 o) :=
  broadcastInDim_apply _ bcast_S256_S1x256_1 v (ix2 (0 : Fin 1) o) (ix1 o) (fun a => match a with
    | ⟨0, _⟩ => by show o.val = if (256 : Nat) = 1 then 0 else o.val; rw [if_neg (by decide)])

theorem col0_apply (W : S256x4.Idx → EReal) (o : Fin 256) : col0 W (ix1 o) = W (ix2 o (0 : Fin 4)) :=
  (shapeCast_apply _ shapeCasts_S256x1_S256 (ix1 o) (ix2 o (0 : Fin 1))
    (by rewrite [Shape.rowMajor_val_two, Shape.rowMajor_val_one]; show o.val * 1 + 0 = o.val; omega)).trans
  (extractStridedSlice_apply ![0, 0] W slices_S256x4_S256x1_0_0 (ix2 o (0 : Fin 1)) (ix2 o (0 : Fin 4)) (fun a => match a with
    | ⟨0, _⟩ => by show o.val = 0 + o.val; omega
    | ⟨1, _⟩ => by show 0 = 0 + 0; omega))
theorem col1_apply (W : S256x4.Idx → EReal) (o : Fin 256) : col1 W (ix1 o) = W (ix2 o (1 : Fin 4)) :=
  (shapeCast_apply _ shapeCasts_S256x1_S256 (ix1 o) (ix2 o (0 : Fin 1))
    (by rewrite [Shape.rowMajor_val_two, Shape.rowMajor_val_one]; show o.val * 1 + 0 = o.val; omega)).trans
  (extractStridedSlice_apply ![0, 1] W slices_S256x4_S256x1_0_1 (ix2 o (0 : Fin 1)) (ix2 o (1 : Fin 4)) (fun a => match a with
    | ⟨0, _⟩ => by show o.val = 0 + o.val; omega
    | ⟨1, _⟩ => by show 1 = 1 + 0; omega))
theorem col2_apply (W : S256x4.Idx → EReal) (o : Fin 256) : col2 W (ix1 o) = W (ix2 o (2 : Fin 4)) :=
  (shapeCast_apply _ shapeCasts_S256x1_S256 (ix1 o) (ix2 o (0 : Fin 1))
    (by rewrite [Shape.rowMajor_val_two, Shape.rowMajor_val_one]; show o.val * 1 + 0 = o.val; omega)).trans
  (extractStridedSlice_apply ![0, 2] W slices_S256x4_S256x1_0_2 (ix2 o (0 : Fin 1)) (ix2 o (2 : Fin 4)) (fun a => match a with
    | ⟨0, _⟩ => by show o.val = 0 + o.val; omega
    | ⟨1, _⟩ => by show 2 = 2 + 0; omega))
theorem col3_apply (W : S256x4.Idx → EReal) (o : Fin 256) : col3 W (ix1 o) = W (ix2 o (3 : Fin 4)) :=
  (shapeCast_apply _ shapeCasts_S256x1_S256 (ix1 o) (ix2 o (0 : Fin 1))
    (by rewrite [Shape.rowMajor_val_two, Shape.rowMajor_val_one]; show o.val * 1 + 0 = o.val; omega)).trans
  (extractStridedSlice_apply ![0, 3] W slices_S256x4_S256x1_0_3 (ix2 o (0 : Fin 1)) (ix2 o (3 : Fin 4)) (fun a => match a with
    | ⟨0, _⟩ => by show o.val = 0 + o.val; omega
    | ⟨1, _⟩ => by show 3 = 3 + 0; omega))

/-- A piece of the stack and the stack share every coordinate but the stacking axis. -/
theorem stack_hi (o : Fin 256) (k : Fin 3) (b : Fin S1x256.rank) (hb : b.cast (rfl : S1x256.rank = S3x256.rank) ≠ (0 : Fin S3x256.rank)) :
    ((ix2 (0 : Fin 1) o : S1x256.Idx) b).val = ((ix2 k o : S3x256.Idx) (b.cast (rfl : S1x256.rank = S3x256.rank))).val := by
  match b with
  | ⟨0, _⟩ => exact absurd rfl hb
  | ⟨1, _⟩ => rfl

/-- Row 0 of the stack at channel `o` is `W[o, 0]`. -/
theorem stacked_row0 (W : S256x4.Idx → EReal) (o : Fin 256) : stacked W (ix2 (0 : Fin 3) o) = W (ix2 o (0 : Fin 4)) :=
  (concatenate_apply_piece (0 : Fin S3x256.rank) _ _ _ 0 (by show (0 : Nat) < 3; omega) S1x256 (asRow (col0 W)) rfl rfl 0 rfl
    (ix2 (0 : Fin 1) o) (stack_hi o _) rfl).trans ((asRow_apply _ o).trans (col0_apply W o))

/-- Row 1 of the stack at channel `o` is `W[o, 1] + W[o, 2]`. -/
theorem stacked_row1 (W : S256x4.Idx → EReal) (o : Fin 256) :
    stacked W (ix2 (1 : Fin 3) o) = W (ix2 o (1 : Fin 4)) + W (ix2 o (2 : Fin 4)) :=
  (concatenate_apply_piece (0 : Fin S3x256.rank) _ _ _ 1 (by show (1 : Nat) < 3; omega) S1x256
    (asRow (addf (F := Ideal) (φ := .f32) (col1 W) (col2 W))) rfl rfl 1 rfl
    (ix2 (0 : Fin 1) o) (stack_hi o _) rfl).trans ((asRow_apply _ o).trans (by
      show col1 W (ix1 o) + col2 W (ix1 o) = _
      rw [col1_apply, col2_apply]))

/-- Row 2 of the stack at channel `o` is `W[o, 3]`. -/
theorem stacked_row2 (W : S256x4.Idx → EReal) (o : Fin 256) : stacked W (ix2 (2 : Fin 3) o) = W (ix2 o (3 : Fin 4)) :=
  (concatenate_apply_piece (0 : Fin S3x256.rank) _ _ _ 2 (by show (2 : Nat) < 3; omega) S1x256 (asRow (col3 W)) rfl rfl 2 rfl
    (ix2 (0 : Fin 1) o) (stack_hi o _) rfl).trans ((asRow_apply _ o).trans (col3_apply W o))

end Cert.KernelIdeal.Blocks

end
-- ==== Proof.Spec.lean ====
/-
  The mathematics of the statement, with no program in sight.

  For a row `n` (of 50000), sixteen neighbours `h` and an output channel `o` (of 256), both programs form an edge
  feature `y h` from the row of `x` and the row of the first coordinate plane, then normalise it over the sixteen
  neighbours (mean, variance, `rsqrt (var + ε)`), scale and shift it by `γ h`, `β h`, apply LeakyReLU with slope 0.2
  and take the maximum over the neighbours.  Everything after the feature (`normMax`) is literally the same function on
  both sides.  The features differ by one law: the kernel multiplies the coordinate difference by the SUM of two
  weights, the reference sums the two products — distributivity, which on the extended reals holds when the factor
  and the two weights are real numbers (`featK_eq_featR`).
-/
import Idealize.ShloMosaic.PureOps.Ideal
import Idealize.ShloMosaic.PureOps.Ideal.Laws
import Idealize.ShloMosaic.Lib.ValueIdx

noncomputable section

namespace Cert.EdgeNorm

open Idealize.ShloMosaic Idealize.ShloMosaic.ValueIdx

/-- The argument and result shapes. -/
abbrev SX : Shape := ⟨4, ![1, 50000, 16, 1]⟩
abbrev SC : Shape := ⟨3, ![2, 50000, 16]⟩
abbrev SW : Shape := ⟨2, ![256, 4]⟩
abbrev SV : Shape := ⟨1, ![16]⟩
abbrev SO : Shape := ⟨4, ![1, 1, 50000, 256]⟩

/-- The mean of sixteen entries: their sum divided by 16 (the word `0x41800000`). -/
def mean16 (y : Fin 16 → EReal) : EReal :=
  Ideal.div (∑ h : Fin 16, y h) (Ideal.ofBits .f32 0x41800000#32)

/-- LeakyReLU at one entry: `v` where `v ≥ 0`, else `0.2 · v` (the word `0x3E4CCCCD`). -/
def leaky (v : EReal) : EReal :=
  Scalar.select (Ideal.cmp .oge v (Ideal.ofBits .f32 0x00000000#32)) v (Ideal.ofBits .f32 0x3E4CCCCD#32 * v)

/-- The inverse standard deviation of sixteen entries: `rsqrt` of their variance plus ε (the word `0x3727C5AC`). -/
def invStd (y : Fin 16 → EReal) : EReal :=
  Ideal.rsqrt (mean16 (fun k => (y k - mean16 y) * (y k - mean16 y)) + Ideal.ofBits .f32 0x3727C5AC#32)

/-- One normalised, scaled, shifted and rectified entry. -/
def normEntry (y g b : Fin 16 → EReal) (h : Fin 16) : EReal :=
  leaky ((y h - mean16 y) * invStd y * g h + b h)

/-- The shared tail: the maximum over the sixteen neighbours, from `-∞` (the word `0xFF800000`). -/
def normMax (y g b : Fin 16 → EReal) : EReal :=
  (Finset.univ : Finset (Fin 16)).fold max (Ideal.ofBits .f32 0xFF800000#32) (normEntry y g b)

/-- An edge feature over three weights: the value difference, the coordinate difference and the centre value, each
    times its weight. -/
def feat3 (xr cr : Fin 16 → EReal) (w0 ws w3 : EReal) (h : Fin 16) : EReal :=
  (xr h - xr 0) * w0 + (cr h - cr 0) * ws + xr 0 * w3

/-- The kernel's edge feature: the two middle weights are added first, and their sum is the middle weight. -/
def featK (xr cr : Fin 16 → EReal) (w0 w1 w2 w3 : EReal) : Fin 16 → EReal :=
  feat3 xr cr w0 (w1 + w2) w3

/-- The reference's edge feature: the four channels' products summed. -/
def featR (xr cr : Fin 16 → EReal) (w : Fin 4 → EReal) (h : Fin 16) : EReal :=
  ∑ k : Fin 4, w k * ![xr h - xr 0, cr h - cr 0, cr h - cr 0, xr 0] k

/-- Row `n` of `x` and of the first coordinate plane, and the vectors `γ`, `β`, as functions of the neighbour. -/
def rowX (x : SX.Idx → EReal) (n : Fin 50000) (h : Fin 16) : EReal := x (ix4 (0 : Fin 1) n h (0 : Fin 1))
def rowC (c : SC.Idx → EReal) (n : Fin 50000) (h : Fin 16) : EReal := c (ix3 (0 : Fin 2) n h)
def vec16 (g : SV.Idx → EReal) (h : Fin 16) : EReal := g (ix1 h)

/-- The kernel's result at row `n`, channel `o`. -/
def outK (x : SX.Idx → EReal) (c : SC.Idx → EReal) (W : SW.Idx → EReal) (g b : SV.Idx → EReal)
    (n : Fin 50000) (o : Fin 256) : EReal :=
  normMax (featK (rowX x n) (rowC c n) (W (ix2 o (0 : Fin 4))) (W (ix2 o (1 : Fin 4))) (W (ix2 o (2 : Fin 4))) (W (ix2 o (3 : Fin 4))))
    (vec16 g) (vec16 b)

/-- The reference's result at row `n`, channel `o`. -/
def outR (x : SX.Idx → EReal) (c : SC.Idx → EReal) (W : SW.Idx → EReal) (g b : SV.Idx → EReal)
    (n : Fin 50000) (o : Fin 256) : EReal :=
  normMax (featR (rowX x n) (rowC c n) (fun k => W (ix2 o k))) (vec16 g) (vec16 b)

/-- The two results as whole arrays of shape [1, 1, 50000, 256]. -/
def arrK (x : SX.Idx → EReal) (c : SC.Idx → EReal) (W : SW.Idx → EReal) (g b : SV.Idx → EReal) : SO.Idx → EReal :=
  fun i => outK x c W g b (i 2) (i 3)
def arrR (x : SX.Idx → EReal) (c : SC.Idx → EReal) (W : SW.Idx → EReal) (g b : SV.Idx → EReal) : SO.Idx → EReal :=
  fun i => outR x c W g b (i 2) (i 3)

end Cert.EdgeNorm

end
-- ==== Proof.LibLayoutReads.lean ====
/-
  Layout operations and one-axis reductions read at an index given by coordinates, for the shapes a normalisation
  over the middle axis of a rank-3 array meets when the reduced axis is kept as a unit axis: unit axes added or dropped by a shape cast
  (in the middle and at the end, not only in front), a column, a slab or a vector broadcast over a rank-3 array,
  one row or one column cut from a matrix, and a sum or a maximum over axis 1 of a rank-3 array read as the
  `Fin`-indexed sum or fold over that axis's coordinates. Every lemma is over arbitrary extents and an arbitrary
  element type; the indices are written with `ix1 … ix4`.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutReads

open Idealize.ShloMosaic Idealize.ShloMosaic.ValueIdx

variable {α : Type}

/-! ## One more pointwise operation at an index -/

/-- A reciprocal square root of extended reals at an index is that of the element. -/
theorem rsqrt_apply {s : Shape} {φ : FTy} (x : FVec Ideal s φ) (i : s.Idx) : rsqrt x i = Ideal.rsqrt (x i) := rfl

/-! ## Unit axes added or dropped by a shape cast -/

/-- A `[1, a, b, 1]` array cast to `[a, b]` reads, at `(i, j)`, the operand at `(0, i, j, 0)`. -/
theorem shapeCast_1ab1_ab_apply {a b : ℕ} (x : (⟨4, ![1, a, b, 1]⟩ : Shape).Idx → α)
    (h : (⟨4, ![1, a, b, 1]⟩ : Shape).ShapeCasts ⟨2, ![a, b]⟩) (i : Fin a) (j : Fin b) :
    shapeCast ⟨2, ![a, b]⟩ x h (ix2 i j) = x (ix4 (0 : Fin 1) i j (0 : Fin 1)) :=
  shapeCast_apply x h _ _ (by
    rw [Shape.rowMajor_val_four, Shape.rowMajor_val_two]
    show ((0 * a + i.val) * b + j.val) * 1 + 0 = i.val * b + j.val
    rw [Nat.zero_mul, Nat.zero_add, Nat.mul_one, Nat.add_zero])

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    simp only [hu, hv, Nat.zero_mul, Nat.zero_add])

/-- An `[a, c]` array cast to `[a, 1, c]` (a reduction's result with the reduced axis kept) reads, at `(i, u, k)`,
    the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, 1, c]` array cast to `[a, c]` reads, at `(i, k)`, the operand at `(i, 0, k)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An `[a, c]` array cast to `[1, 1, a, c]` reads, at `(u, v, i, k)`, the operand at `(i, k)`. -/
theorem shapeCast_ac_11ac_apply {a c : ℕ} (x : (⟨2, ![a, c]⟩ : Shape).Idx → α)
    (h : (⟨2, ![a, c]⟩ : Shape).ShapeCasts ⟨4, ![1, 1, a, c]⟩) (u v : Fin 1) (i : Fin a) (k : Fin c) :
    shapeCast ⟨4, ![1, 1, a, c]⟩ x h (ix4 u v i k) = x (ix2 i k) :=
  shapeCast_apply x h _ _ (by
    have hu : u.val = 0 := by omega
    have hv : v.val = 0 := by omega
    rw [Shape.rowMajor_val_two, Shape.rowMajor_val_four]
    show i.val * c + k.val = ((u.val * 1 + v.val) * a + i.val) * c + k.val
    simp only [hu, hv, Nat.zero_mul, Nat.zero_add])

/-! ## One row or one column cut from a matrix -/

/-- Row `o` of a matrix, cut as a `[1, c]` slab, reads at `(u, e)` the matrix at `(o, e)`. -/
theorem slice2_row_apply {n c : ℕ} (o : ℕ) (X : (⟨2, ![n, c]⟩ : Shape).Idx → α)
    (h : (⟨2, ![n, c]⟩ : Shape).Slices ![o, 0] ⟨2, ![1, c]⟩) (u : Fin 1) (e : Fin c) (k : Fin n) (hk : k.val = o) :
    extractStridedSlice ⟨2, ![1, c]⟩ ![o, 0] X h (ix2 u e) = X (ix2 k e) :=
  slice2_axis0_apply o X h u e k (by have := u.isLt; omega)

/-- Column `o` of a matrix, cut as an `[a, 1]` column, reads at `(i, u)` the matrix at `(i, o)`. -/
theorem slice2_col_apply {a b : ℕ} (o : ℕ) (X : (⟨2, ![a, b]⟩ : Shape).Idx → α)
    (h : (⟨2, ![a, b]⟩ : Shape).Slices ![0, o] ⟨2, ![a, 1]⟩) (i : Fin a) (u : Fin 1) (k : Fin b) (hk : k.val = o) :
    extractStridedSlice ⟨2, ![a, 1]⟩ ![0, o] X h (ix2 i u) = X (ix2 i k) :=
  slice2_axis1_apply o X h i u k (by have := u.isLt; omega)

/-! ## Broadcasts along unit axes -/

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array (a reduction over axis 1 with the axis kept) broadcast to `[a, b, c]` reads, at
    `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, 1, c]` vector broadcast to `[a, b, c]` reads, at `(i, j, k)`, the vector at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[1, b, 1]` vector along the middle axis broadcast to `[a, b, c]` reads, at `(i, j, k)`, the vector at
    `(0, j, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (i : Fin a) (j : Fin b) (k : Fin c) :
    broadcastTo ⟨3, ![a, b, c]⟩ v h (ix3 i j k) = v (ix3 (0 : Fin 1) j (0 : Fin 1)) := by
  refine broadcastTo_apply v h (ix3 i j k) (ix3 (0 : Fin 1) j (0 : Fin 1)) fun ax => ?_
  match ax with
  | ⟨0, _⟩ => rfl
  | ⟨1, _⟩ =>
    show j.val = if b = 1 then 0 else j.val
    split
    · have := j.isLt; omega
    · rfl
  | ⟨2, _⟩ => rfl

/-! ## A reduction over axis 1 of a rank-3 array -/

/-- The index `(i, j, k)` of an `[a, b, c]` array is the index `(i, k)` of the array reduced over axis 1 with the
    coordinate `j` put back on that axis. -/
theorem lift_axis1_ix2 {a b c : ℕ} (h : (⟨3, ![a, b, c]⟩ : Shape).Reduces [1] ⟨2, ![a, c]⟩) (i : Fin a) (k : Fin c)
    (j : Fin b) : h.lift (ix2 i k) j = ix3 i j k := by
  funext ax
  match ax with
  | ⟨0, _⟩ => exact Fin.ext rfl
  | ⟨1, _⟩ => exact Fin.ext rfl
  | ⟨2, _⟩ => exact Fin.ext rfl

/-- A sum over axis 1 of an `[a, b, c]` array of extended reals, read at `(i, k)`, is the sum over `j` of the array
    at `(i, j, k)`. -/
theorem multiReduction_add_axis1_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_axis1_ix2 h i k j))

/-- A maximum over axis 1 of an `[a, b, c]` array of extended reals, read at `(i, k)`, is the fold of `max`, from the
    accumulator's value, over `j` of the array at `(i, j, k)`. -/
theorem multiReduction_maximumf_axis1_apply {a b c : ℕ} {φ : FTy} (src : FVec Ideal ⟨3, ![a, b, c]⟩ φ)
    (acc : BitVec φ.bits) (h : (⟨3, ![a, b, c]⟩ : Shape).Reduces [1] ⟨2, ![a, c]⟩) (hφ : FKind.Formats φ)
    (hacc : acc = FKind.maximumf.neutral φ hφ) (i : Fin a) (k : Fin c) :
    multiReduction .maximumf [1] ⟨2, ![a, c]⟩ src acc h hφ hacc (ix2 i k)
      = (Finset.univ : Finset (Fin b)).fold max (Ideal.ofBits φ acc) (fun j => src (ix3 i j k)) :=
  (Ideal.multiReduction_maximumf_single src acc h hφ hacc (ix2 i k)).trans
    (congrArg (fun f => (Finset.univ : Finset (Fin b)).fold max (Ideal.ofBits φ acc) f)
      (funext fun j => congrArg src (lift_axis1_ix2 h i k j)))

end Cert.LayoutReads

end
-- ==== Proof.PayloadAt.lean ====
/-
  The arithmetic of the kernel's body at one index, over arbitrary loaded blocks: the edge feature at
  `(r, h, o)`, its mean and its squared deviations over the sixteen neighbours, and the stored value at `(0, 0, r, o)` —
  the maximum over the neighbours of the normalised, scaled, shifted and rectified feature.
-/
import proofs.«172504_j29317446762758_1_alg».proof.Proof.Gen.KernelIdeal.Skeleton
import proofs.«172504_j29317446762758_1_alg».proof.Proof.Spec
import proofs.«172504_j29317446762758_1_alg».proof.Proof.LibLayoutReads
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Cert.KernelIdeal Idealize.ShloMosaic Idealize.ShloMosaic.ValueIdx Cert.LayoutReads

/-- The edge feature at row `r`, neighbour `h`, channel `o`: the value difference to neighbour 0 times the first
    weight row, plus the coordinate difference to neighbour 0 times the second, plus neighbour 0's value times the
    third. -/
theorem pay2_apply (v0 : Vec Ideal S1x400x16x1 .f32) (v2 : Vec Ideal S1x400x16 .f32) (v12 : Vec Ideal S3x256 .f32)
    (r : Fin 400) (h : Fin 16) (o : Fin 256) :
    Gen.k0_pay2 (F := Ideal) v0 v2 v12 (ix3 r h o)
      = Cert.EdgeNorm.feat3 (fun h => v0 (ix4 (0 : Fin 1) r h (0 : Fin 1))) (fun h => v2 (ix3 (0 : Fin 1) r h))
          (v12 (ix2 (0 : Fin 3) o)) (v12 (ix2 (1 : Fin 3) o)) (v12 (ix2 (2 : Fin 3) o)) h := by
  unfold Gen.k0_pay2 Cert.EdgeNorm.feat3
  simp only [addf_apply, mulf_apply, subf_apply, broadcastTo_ab1_abc_apply, broadcastTo_11c_abc_apply,
    broadcastTo_a1_ab_apply, shapeCast_self, shapeCast_ab_ab1_apply, shapeCast_a_11a_apply, shapeCast_1a_a_apply,
    shapeCast_1ab1_ab_apply, shapeCast_1ab_ab_apply,
    slice2_col_apply 0 _ _ _ _ (0 : Fin 16) rfl, slice2_row_apply 0 _ _ _ _ (0 : Fin 3) rfl,
    slice2_row_apply 1 _ _ _ _ (1 : Fin 3) rfl, slice2_row_apply 2 _ _ _ _ (2 : Fin 3) rfl]

/-- The mean of the edge feature over the sixteen neighbours, at row `r` and channel `o` (whatever the unit
    coordinate on the kept axis): the sum of the feature's sixteen entries divided by sixteen. -/
theorem pay3_apply (v0 : Vec Ideal S1x400x16x1 .f32) (v2 : Vec Ideal S1x400x16 .f32) (v12 : Vec Ideal S3x256 .f32)
    (r : Fin 400) (u : Fin 1) (o : Fin 256) :
    Gen.k0_pay3 (F := Ideal) v0 v2 v12 (ix3 r u o)
      = Cert.EdgeNorm.mean16 (fun h => Gen.k0_pay2 (F := Ideal) v0 v2 v12 (ix3 r h o)) := by
  unfold Gen.k0_pay3 Cert.EdgeNorm.mean16
  simp only [divf_apply, broadcast_apply, shapeCast_ac_a1c_apply]
  exact congrArg (fun s => Ideal.div s (Ideal.ofBits .f32 0x41800000#32))
    (multiReduction_add_axis1_apply (Gen.k0_pay2 (F := Ideal) v0 v2 v12) _ _ _ _ r o)

/-- The squared deviation of the edge feature from its mean over the neighbours, at `(r, h, o)`. -/
theorem pay4_apply (v0 : Vec Ideal S1x400x16x1 .f32) (v2 : Vec Ideal S1x400x16 .f32) (v12 : Vec Ideal S3x256 .f32)
    (r : Fin 400) (h : Fin 16) (o : Fin 256) :
    Gen.k0_pay4 (F := Ideal) v0 v2 v12 (ix3 r h o)
      = (Gen.k0_pay2 (F := Ideal) v0 v2 v12 (ix3 r h o) - Gen.k0_pay3 (F := Ideal) v0 v2 v12 (ix3 r (0 : Fin 1) o))
        * (Gen.k0_pay2 (F := Ideal) v0 v2 v12 (ix3 r h o) - Gen.k0_pay3 (F := Ideal) v0 v2 v12 (ix3 r (0 : Fin 1) o)) := by
  unfold Gen.k0_pay4
  simp only [mulf_apply, subf_apply, broadcastTo_a1c_abc_apply]

/-- The stored value at `(0, 0, r, o)`, over ANY three arrays that are, at row `r` and channel `o`, a function `y` of
    the neighbour, its mean and its squared deviations: the maximum over the neighbours of the normalised, scaled,
    shifted and rectified `y`. -/
theorem pay1_apply (v39 : FVec Ideal S400x16x256 .f32) (v43 : FVec Ideal S400x1x256 .f32)
    (v46 : FVec Ideal S400x16x256 .f32) (v58 v60 : Vec Ideal S1x16x1 .f32) (r : Fin 400) (o : Fin 256)
    (y : Fin 16 → EReal) (h39 : ∀ h, v39 (ix3 r h o) = y h)
    (h43 : v43 (ix3 r (0 : Fin 1) o) = Cert.EdgeNorm.mean16 y)
    (h46 : ∀ h, v46 (ix3 r h o) = (y h - Cert.EdgeNorm.mean16 y) * (y h - Cert.EdgeNorm.mean16 y)) :
    Gen.k0_pay1 (F := Ideal) v39 v43 v46 v58 v60 (ix4 (0 : Fin 1) (0 : Fin 1) r o)
      = Cert.EdgeNorm.normMax y (fun h => v58 (ix3 (0 : Fin 1) h (0 : Fin 1)))
          (fun h => v60 (ix3 (0 : Fin 1) h (0 : Fin 1))) := by
  unfold Gen.k0_pay1
  simp only [shapeCast_ac_11ac_apply, shapeCast_a1c_ac_apply, shapeCast_ac_a1c_apply]
  refine (multiReduction_maximumf_axis1_apply _ _ _ _ _ r o).trans ?_
  unfold Cert.EdgeNorm.normMax
  refine congrArg (fun f => (Finset.univ : Finset (Fin 16)).fold max (Ideal.ofBits .f32 0xFF800000#32) f)
    (funext fun h => ?_)
  have e47 : ∀ (hφ : FKind.Formats .f32) (hacc : (0x00000000#32 : BitVec 32) = 0x00000000#32),
      multiReduction (F := Ideal) .add [1] S400x256 v46 0x00000000#32 Gen.reduces_S400x16x256_S400x256 hφ hacc (ix2 r o)
        = ∑ k : Fin 16, v46 (ix3 r k o) :=
    fun hφ hacc => multiReduction_add_axis1_apply v46 _ _ hφ hacc r o
  simp only [select_apply, cmpf_apply, mulf_apply, addf_apply, subf_apply, divf_apply, rsqrt_apply, broadcast_apply,
    broadcastTo_a1c_abc_apply, broadcastTo_1b1_abc_apply, shapeCast_self, shapeCast_ac_a1c_apply, h39, h43, e47, h46,
    Cert.EdgeNorm.normEntry, Cert.EdgeNorm.leaky, Cert.EdgeNorm.invStd, Cert.EdgeNorm.mean16, Ideal.cmpf_def,
    Ideal.ofBits_def]

/-- THE STORED VALUE AT AN INDEX: over arbitrary loaded blocks, what the body stores at `(0, 0, r, o)` is the maximum
    over the sixteen neighbours of the normalised, scaled, shifted and rectified edge feature of row `r` and channel
    `o`, the feature formed from the row of values, the row of coordinates and the three weights of the channel. -/
theorem pay_apply (v0 : Vec Ideal S1x400x16x1 .f32) (v2 : Vec Ideal S1x400x16 .f32) (v12 : Vec Ideal S3x256 .f32)
    (v58 v60 : Vec Ideal S1x16x1 .f32) (r : Fin 400) (o : Fin 256) :
    Gen.k0_pay1 (F := Ideal) (Gen.k0_pay2 v0 v2 v12) (Gen.k0_pay3 v0 v2 v12) (Gen.k0_pay4 v0 v2 v12) v58 v60
        (ix4 (0 : Fin 1) (0 : Fin 1) r o)
      = Cert.EdgeNorm.normMax
          (Cert.EdgeNorm.feat3 (fun h => v0 (ix4 (0 : Fin 1) r h (0 : Fin 1))) (fun h => v2 (ix3 (0 : Fin 1) r h))
            (v12 (ix2 (0 : Fin 3) o)) (v12 (ix2 (1 : Fin 3) o)) (v12 (ix2 (2 : Fin 3) o)))
          (fun h => v58 (ix3 (0 : Fin 1) h (0 : Fin 1))) (fun h => v60 (ix3 (0 : Fin 1) h (0 : Fin 1))) := by
  have h2 : ∀ h : Fin 16, Gen.k0_pay2 (F := Ideal) v0 v2 v12 (ix3 r h o)
      = Cert.EdgeNorm.feat3 (fun h => v0 (ix4 (0 : Fin 1) r h (0 : Fin 1))) (fun h => v2 (ix3 (0 : Fin 1) r h))
          (v12 (ix2 (0 : Fin 3) o)) (v12 (ix2 (1 : Fin 3) o)) (v12 (ix2 (2 : Fin 3) o)) h :=
    fun h => pay2_apply v0 v2 v12 r h o
  have h3 : Gen.k0_pay3 (F := Ideal) v0 v2 v12 (ix3 r (0 : Fin 1) o)
      = Cert.EdgeNorm.mean16 (Cert.EdgeNorm.feat3 (fun h => v0 (ix4 (0 : Fin 1) r h (0 : Fin 1)))
          (fun h => v2 (ix3 (0 : Fin 1) r h)) (v12 (ix2 (0 : Fin 3) o)) (v12 (ix2 (1 : Fin 3) o))
          (v12 (ix2 (2 : Fin 3) o))) :=
    (pay3_apply v0 v2 v12 r 0 o).trans (congrArg Cert.EdgeNorm.mean16 (funext h2))
  exact pay1_apply _ _ _ v58 v60 r o _ h2 h3 (fun h => by rw [pay4_apply, h3, h2])

end Cert.KernelIdeal.PayloadAt

end
-- ==== Proof.ValueKI.lean ====
/-
  The result array after the kernel's run, as one function of the five arguments.

  Point `t` writes back the block of rows `400 t … 400 t + 399` of the result; at row `r` of the block and channel `o`
  the body's value is the shared tail `normMax` of the edge feature built from row `400 t + r` of `x` and of the
  first coordinate plane and from the three stacked weights of `o`, which are `W[o,0]`, `W[o,1] + W[o,2]`, `W[o,3]`:
  that is `EdgeNorm.outK` at (400 t + r, o).  The 125 blocks cover the array, so the array ends as `EdgeNorm.arrK`.
-/
import proofs.«172504_j29317446762758_1_alg».proof.Proof.BlockReads
import proofs.«172504_j29317446762758_1_alg».proof.Proof.PayloadAt
import proofs.«172504_j29317446762758_1_alg».proof.Proof.Spec

noncomputable section

namespace Cert.KernelIdeal.Val

open Cert.KernelIdeal Cert.KernelIdeal.Gen Cert.KernelIdeal.Fr Cert.KernelIdeal.Blocks Cert.EdgeNorm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array as a function of the launch memory on core `c`. -/
def G (c : Dev nD) : S1x1x50000x256.Idx → EReal :=
  arrK (m ((c : Thread nD τ).loc main_arg0)) (m ((c : Thread nD τ).loc main_arg1)) (m ((c : Thread nD τ).loc main_arg2))
    (m ((c : Thread nD τ).loc main_arg3)) (m ((c : Thread nD τ).loc main_arg4))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- An index of the output block is (0, 0, r, o). -/
theorem split_out (j : S1x1x400x256.Idx) : ∃ (r : Fin 400) (o : Fin 256), j = ix4 (0 : Fin 1) (0 : Fin 1) r o := by
  refine ⟨⟨(j 2).val, (j 2).isLt⟩, ⟨(j 3).val, (j 3).isLt⟩, funext fun a => Fin.ext ?_⟩
  have h0 : (j 0).val < 1 := (j 0).isLt
  have h1 : (j 1).val < 1 := (j 1).isLt
  match a with
  | ⟨0, _⟩ => show (j 0).val = 0; omega
  | ⟨1, _⟩ => show (j 1).val = 0; omega
  | ⟨2, _⟩ => rfl
  | ⟨3, _⟩ => rfl

/-- Entry (r, o) of point `t`'s output block sits at row `400 t + r`, channel `o` of the result. -/
theorem out_emb (t : Fin cfg0.N) (r : Fin 400) (o : Fin 256) :
    ((cfg0.win 5).blk t).view.emb (ix4 (0 : Fin 1) (0 : Fin 1) r o) = ix4 (0 : Fin 1) (0 : Fin 1) (rowOf t r) o := by
  refine funext fun a => Fin.ext ?_
  obtain ⟨-, -, -, -, -, -, -, -, -, -, -, -, -, -, -, e0, e1, e2, e3⟩ := idx_facts t
  match a with
  | ⟨0, _⟩ => show win0_5.index t (0 : Fin 4) * 1 + 1 * 0 = 0; omega
  | ⟨1, _⟩ => show win0_5.index t (1 : Fin 4) * 1 + 1 * 0 = 0; omega
  | ⟨2, _⟩ => show win0_5.index t (2 : Fin 4) * 400 + 1 * r.val = t.val * 400 + r.val; omega
  | ⟨3, _⟩ => show win0_5.index t (3 : Fin 4) * 256 + 1 * o.val = o.val; omega

/-- What point `t` writes back is block `t` of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after5]
  unfold outBlock
  rw [View.canon_unit_zero hz4]
  unfold stored
  simp only [View.ld_unit_zero (S := S1x400x16x1) hz4, View.ld_unit_zero (S := S1x400x16) hz3, View.ld_unit_zero (S := S3x256) hz2,
    View.ld_unit_zero (S := S1x16x1) hz3]
  refine funext fun (j : S1x1x400x256.Idx) => ?_
  obtain ⟨r, o, rfl⟩ := split_out j
  show k0_pay1 (F := Ideal) (k0_pay2 (iblk m c 0 t) (iblk m c 1 t) (iblk m c 2 t)) (k0_pay3 (iblk m c 0 t) (iblk m c 1 t) (iblk m c 2 t))
      (k0_pay4 (iblk m c 0 t) (iblk m c 1 t) (iblk m c 2 t)) (iblk m c 3 t) (iblk m c 4 t) (ix4 (0 : Fin 1) (0 : Fin 1) r o)
    = G m c (((cfg0.win 5).blk t).view.emb (ix4 (0 : Fin 1) (0 : Fin 1) r o))
  refine (Cert.KernelIdeal.PayloadAt.pay_apply (iblk m c 0 t) (iblk m c 1 t) (iblk m c 2 t) (iblk m c 3 t) (iblk m c 4 t) r o).trans ?_
  rw [out_emb t r o]
  have hx : (fun h => iblk m c 0 t (ix4 (0 : Fin 1) r h (0 : Fin 1))) = rowX (m ((c : Thread nD τ).loc main_arg0)) (rowOf t r) :=
    funext fun h => (x_block m c t r h).trans (congrFun (V_main_arg0 m c) _)
  have hc : (fun h => iblk m c 1 t (ix3 (0 : Fin 1) r h)) = rowC (m ((c : Thread nD τ).loc main_arg1)) (rowOf t r) :=
    funext fun h => (c_block m c t r h).trans (congrFun (V_main_arg1 m c) _)
  have hw0 : iblk m c 2 t (ix2 (0 : Fin 3) o) = m ((c : Thread nD τ).loc main_arg2) (ix2 o (0 : Fin 4)) :=
    (w_block m c t 0 o).trans ((congrFun (V_v12 m c) _).trans (stacked_row0 _ o))
  have hw1 : iblk m c 2 t (ix2 (1 : Fin 3) o)
      = HAdd.hAdd (α := EReal) (β := EReal) (γ := EReal) (m ((c : Thread nD τ).loc main_arg2) (ix2 o (1 : Fin 4)))
          (m ((c : Thread nD τ).loc main_arg2) (ix2 o (2 : Fin 4))) :=
    (w_block m c t 1 o).trans ((congrFun (V_v12 m c) _).trans (stacked_row1 _ o))
  have hw2 : iblk m c 2 t (ix2 (2 : Fin 3) o) = m ((c : Thread nD τ).loc main_arg2) (ix2 o (3 : Fin 4)) :=
    (w_block m c t 2 o).trans ((congrFun (V_v12 m c) _).trans (stacked_row2 _ o))
  have hg : (fun h => iblk m c 3 t (ix3 (0 : Fin 1) h (0 : Fin 1))) = vec16 (m ((c : Thread nD τ).loc main_arg3)) :=
    funext fun h => (g_block m c t h).trans ((congrFun (V_v13 m c) _).trans (recast_apply _ h))
  have hb : (fun h => iblk m c 4 t (ix3 (0 : Fin 1) h (0 : Fin 1))) = vec16 (m ((c : Thread nD τ).loc main_arg4)) :=
    funext fun h => (b_block m c t h).trans ((congrFun (V_v14 m c) _).trans (recast_apply _ h))
  rw [hx, hc, hw0, hw1, hw2, hg, hb]
  rfl

/-- An index of the result is in point `t`'s block iff each coordinate is in the block's range on its axis. -/
theorem mem_blk (t : Fin cfg0.N) (i : S1x1x50000x256.Idx) :
    i ∈ ((cfg0.win 5).blk t).view.set ↔ ∀ a : Fin 4, win0_5.index t a * S1x1x400x256.size a ≤ (i a).val
      ∧ (i a).val < win0_5.index t a * S1x1x400x256.size a + S1x1x400x256.size a := by
  show i ∈ ((View.whole main_v15).slice (win0_5.rect t)).set ↔ _
  rw [View.set_slice_whole, Rect.mem_set_unit]
  exact Iff.rfl

/-- The grid point whose block holds row `i 2`: the row divided by 400. -/
def ptOf (i : S1x1x50000x256.Idx) : Fin cfg0.N :=
  ⟨(i 2).val / 400, by have h2 : (i 2).val < 50000 := (i 2).isLt; show (i 2).val / 400 < 125; omega⟩

/-- Every index of the result is in the block of the point its row names. -/
theorem cover (i : S1x1x50000x256.Idx) : ∃ t : Fin cfg0.N, (cfg0.win 5).flush t = true ∧ i ∈ ((cfg0.win 5).blk t).view.set := by
  have h0 : (i 0).val < 1 := (i 0).isLt
  have h1 : (i 1).val < 1 := (i 1).isLt
  have h2 : (i 2).val < 50000 := (i 2).isLt
  have h3 : (i 3).val < 256 := (i 3).isLt
  refine ⟨ptOf i, flush0_5 _, ?_⟩
  rw [mem_blk]
  obtain ⟨-, -, -, -, -, -, -, -, -, -, -, -, -, -, -, e0, e1, e2, e3⟩ := idx_facts (ptOf i)
  have e2' : win0_5.index (ptOf i) (2 : Fin 4) = (i 2).val / 400 := e2
  intro a
  match a with
  | ⟨0, _⟩ => show win0_5.index _ (0 : Fin 4) * 1 ≤ (i 0).val ∧ (i 0).val < win0_5.index _ (0 : Fin 4) * 1 + 1; omega
  | ⟨1, _⟩ => show win0_5.index _ (1 : Fin 4) * 1 ≤ (i 1).val ∧ (i 1).val < win0_5.index _ (1 : Fin 4) * 1 + 1; omega
  | ⟨2, _⟩ => show win0_5.index _ (2 : Fin 4) * 400 ≤ (i 2).val ∧ (i 2).val < win0_5.index _ (2 : Fin 4) * 400 + 400; omega
  | ⟨3, _⟩ => show win0_5.index _ (3 : Fin 4) * 256 ≤ (i 3).val ∧ (i 3).val < win0_5.index _ (3 : Fin 4) * 256 + 256; omega

/-- The result array after the run is `G`. -/
theorem final (c : Dev nD) : (dats m 0 c).arrAt 5 cfg0.N = G m c :=
  (dats m 0 c).arrAt_eq_of_cover 5 (G m c) (fun t _ => flushed_eq m c t) cover

/-- The kernel's run: it terminates with the result at `G` of the launch memory and the five arguments unchanged. -/
theorem run : θ_run defs (onTc (τ := τ) (main (F := Ideal))) ⟨m, fun _ => 0, ρ⟩ fun r => ∀ c : Dev nD,
      r.2.mem ((c.tc : Thread nD τ).loc main_v15) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Val

end
-- ==== Proof.RefSide.lean ====
/-
  The reference's side: its result array, read index by index, is `Cert.EdgeNorm.arrR` of the arguments.
-/
import proofs.«172504_j29317446762758_1_alg».proof.Proof.Gen.ReferenceIdeal.Read
import proofs.«172504_j29317446762758_1_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.EdgeNorm

/-- The reshaped first coordinate plane at row `n`, neighbour `h` is the plane's entry `(0, n, h)`: the two reshapes
    and the slice only rename the position. -/
theorem plane_at (x1 : (⟨S2x50000x16, .f32⟩ : BufTy).Contents (Elt Ideal)) (n : Fin 50000) (h : Fin 16) :
    Read.val_main_v2 (F := Ideal) x1 (ix4 (0 : Fin 1) n h (0 : Fin 1)) = rowC x1 n h := by
  rw [Read.val_main_v2_apply, Read.val_main_v1_apply, Read.val_main_v0_apply]
  unfold rowC
  refine congrArg x1 (funext fun a => Fin.ext ?_)
  have hn : n.val < 50000 := n.isLt
  have hh : h.val < 16 := h.isLt
  match a with
  | ⟨0, _⟩ => rfl
  | ⟨1, _⟩ =>
    show ((((((0 : Fin 1).val * 50000 + n.val) * 16 + h.val) * 1 + (0 : Fin 1).val) / 16) * 16
      + ((((0 : Fin 1).val * 50000 + n.val) * 16 + h.val) * 1 + (0 : Fin 1).val) % 16) / 16 % 50000 = n.val
    simp only [Fin.val_zero]; omega
  | ⟨2, _⟩ =>
    show ((((((0 : Fin 1).val * 50000 + n.val) * 16 + h.val) * 1 + (0 : Fin 1).val) / 16) * 16
      + ((((0 : Fin 1).val * 50000 + n.val) * 16 + h.val) * 1 + (0 : Fin 1).val) % 16) % 16 = h.val
    simp only [Fin.val_zero]; omega

/-- The broadcast centre value of `x`: at every neighbour of row `n` it is the row's entry at neighbour 0. -/
theorem centreX_at (x0 : (⟨S1x50000x16x1, .f32⟩ : BufTy).Contents (Elt Ideal)) (n : Fin 50000) (h : Fin 16) :
    Read.val_main_v4 (F := Ideal) x0 (ix4 (0 : Fin 1) n h (0 : Fin 1)) = rowX x0 n 0 := by
  rw [Read.val_main_v4_apply, Read.val_main_v3_apply]
  unfold rowX
  exact congrArg x0 (funext fun a => Fin.ext (by
    match a with
    | ⟨0, _⟩ => rfl
    | ⟨1, _⟩ => rfl
    | ⟨2, _⟩ => rfl
    | ⟨3, _⟩ => rfl))

/-- The broadcast centre coordinate: at every neighbour of row `n` it is the plane's entry at neighbour 0. -/
theorem centreC_at (x1 : (⟨S2x50000x16, .f32⟩ : BufTy).Contents (Elt Ideal)) (n : Fin 50000) (h : Fin 16) :
    Read.val_main_v6 (F := Ideal) x1 (ix4 (0 : Fin 1) n h (0 : Fin 1)) = rowC x1 n 0 := by
  rw [Read.val_main_v6_apply, Read.val_main_v5_apply]
  refine Eq.trans (congrArg (Read.val_main_v2 (F := Ideal) x1) (funext fun a => Fin.ext ?_)) (plane_at x1 n 0)
  match a with
  | ⟨0, _⟩ => rfl
  | ⟨1, _⟩ => rfl
  | ⟨2, _⟩ => rfl
  | ⟨3, _⟩ => rfl

/-- The value difference at row `n`, neighbour `h`. -/
theorem diffX_at (x0 : (⟨S1x50000x16x1, .f32⟩ : BufTy).Contents (Elt Ideal)) (n : Fin 50000) (h : Fin 16) :
    Read.val_main_v7 (F := Ideal) x0 (ix4 (0 : Fin 1) n h (0 : Fin 1)) = rowX x0 n h - rowX x0 n 0 := by
  rw [Read.val_main_v7_apply, centreX_at]
  rfl

/-- The coordinate difference at row `n`, neighbour `h`. -/
theorem diffC_at (x1 : (⟨S2x50000x16, .f32⟩ : BufTy).Contents (Elt Ideal)) (n : Fin 50000) (h : Fin 16) :
    Read.val_main_v8 (F := Ideal) x1 (ix4 (0 : Fin 1) n h (0 : Fin 1)) = rowC x1 n h - rowC x1 n 0 := by
  rw [Read.val_main_v8_apply, centreC_at, plane_at]
  rfl

/-- The four channels joined along the last axis: channel `k` of row `n`, neighbour `h` is the `k`-th of the value
    difference, the coordinate difference (twice) and the centre value. -/
theorem chan_at (x0 : (⟨S1x50000x16x1, .f32⟩ : BufTy).Contents (Elt Ideal)) (x1 : (⟨S2x50000x16, .f32⟩ : BufTy).Contents (Elt Ideal))
    (n : Fin 50000) (h : Fin 16) (k : Fin 4) :
    Read.val_main_v9 (F := Ideal) x0 x1 (ix4 (0 : Fin 1) n h k)
      = ![rowX x0 n h - rowX x0 n 0, rowC x1 n h - rowC x1 n 0, rowC x1 n h - rowC x1 n 0, rowX x0 n 0] k := by
  unfold Read.val_main_v9
  have hi : ∀ (q : Fin 4) (b : Fin S1x50000x16x1.rank), b.cast (rfl : S1x50000x16x1.rank = S1x50000x16x4.rank) ≠ (3 : Fin S1x50000x16x4.rank) →
      ((ix4 (0 : Fin 1) n h (0 : Fin 1) : S1x50000x16x1.Idx) b).val
        = ((ix4 (0 : Fin 1) n h q : S1x50000x16x4.Idx) (b.cast (rfl : S1x50000x16x1.rank = S1x50000x16x4.rank))).val := fun q b hb => by
    match b with
    | ⟨0, _⟩ => rfl
    | ⟨1, _⟩ => rfl
    | ⟨2, _⟩ => rfl
    | ⟨3, _⟩ => exact absurd rfl hb
  match k with
  | ⟨0, _⟩ =>
    exact (concatenate_apply_piece (3 : Fin S1x50000x16x4.rank) _ _ _ 0 (by show (0 : Nat) < 4; omega) S1x50000x16x1 (Read.val_main_v7 (F := Ideal) x0) rfl rfl 0 rfl
      (ix4 (0 : Fin 1) n h (0 : Fin 1)) (hi _) rfl).trans (diffX_at x0 n h)
  | ⟨1, _⟩ =>
    exact (concatenate_apply_piece (3 : Fin S1x50000x16x4.rank) _ _ _ 1 (by show (1 : Nat) < 4; omega) S1x50000x16x1 (Read.val_main_v8 (F := Ideal) x1) rfl rfl 1 rfl
      (ix4 (0 : Fin 1) n h (0 : Fin 1)) (hi _) rfl).trans (diffC_at x1 n h)
  | ⟨2, _⟩ =>
    exact (concatenate_apply_piece (3 : Fin S1x50000x16x4.rank) _ _ _ 2 (by show (2 : Nat) < 4; omega) S1x50000x16x1 (Read.val_main_v8 (F := Ideal) x1) rfl rfl 2 rfl
      (ix4 (0 : Fin 1) n h (0 : Fin 1)) (hi _) rfl).trans (diffC_at x1 n h)
  | ⟨3, _⟩ =>
    exact (concatenate_apply_piece (3 : Fin S1x50000x16x4.rank) _ _ _ 3 (by show (3 : Nat) < 4; omega) S1x50000x16x1 (Read.val_main_v4 (F := Ideal) x0) rfl rfl 3 rfl
      (ix4 (0 : Fin 1) n h (0 : Fin 1)) (hi _) rfl).trans (centreX_at x0 n h)

/-- The channel product, transposed: at channel `o`, row `n`, neighbour `h` it is the reference's edge feature, the
    four channels' products with the four weights of `o` summed. -/
theorem feat_at (x0 : (⟨S1x50000x16x1, .f32⟩ : BufTy).Contents (Elt Ideal)) (x1 : (⟨S2x50000x16, .f32⟩ : BufTy).Contents (Elt Ideal))
    (x2 : (⟨S256x4, .f32⟩ : BufTy).Contents (Elt Ideal)) (o : Fin 256) (n : Fin 50000) (h : Fin 16) :
    Read.val_main_v11 (F := Ideal) x0 x1 x2 (ix4 (0 : Fin 1) o n h)
      = featR (rowX x0 n) (rowC x1 n) (fun k => x2 (ix2 o k)) h := by
  rw [Read.val_main_v11_apply, Read.val_main_v10_apply]
  unfold featR
  refine Finset.sum_congr rfl fun k _ => ?_
  have el : Read.lidx_main_v10 (Read.idx_main_v11 (ix4 (0 : Fin 1) o n h)) k = ix2 o k :=
    funext fun a => Fin.ext (by match a with | ⟨0, _⟩ => rfl | ⟨1, _⟩ => rfl)
  have er : Read.ridx_main_v10 (Read.idx_main_v11 (ix4 (0 : Fin 1) o n h)) k = ix4 (0 : Fin 1) n h k :=
    funext fun a => Fin.ext (by match a with | ⟨0, _⟩ => rfl | ⟨1, _⟩ => rfl | ⟨2, _⟩ => rfl | ⟨3, _⟩ => rfl)
  rw [el, er, chan_at]

/-- The reference's sixteen edge features of channel `o`, row `n`, as a function of the neighbour. -/
def yRow (x0 : (⟨S1x50000x16x1, .f32⟩ : BufTy).Contents (Elt Ideal)) (x1 : (⟨S2x50000x16, .f32⟩ : BufTy).Contents (Elt Ideal))
    (x2 : (⟨S256x4, .f32⟩ : BufTy).Contents (Elt Ideal)) (o : Fin 256) (n : Fin 50000) : Fin 16 → EReal :=
  fun k => Read.val_main_v11 (F := Ideal) x0 x1 x2 (ix4 (0 : Fin 1) o n k)

/-- They are the specification's reference feature of the rows of `x`, of the coordinate plane and of the weights. -/
theorem yRow_eq (x0 : (⟨S1x50000x16x1, .f32⟩ : BufTy).Contents (Elt Ideal)) (x1 : (⟨S2x50000x16, .f32⟩ : BufTy).Contents (Elt Ideal))
    (x2 : (⟨S256x4, .f32⟩ : BufTy).Contents (Elt Ideal)) (o : Fin 256) (n : Fin 50000) :
    yRow x0 x1 x2 o n = featR (rowX x0 n) (rowC x1 n) (fun k => x2 (ix2 o k)) :=
  funext fun h => feat_at x0 x1 x2 o n h

/-- The mean over the neighbours: the sum from 0 over the sixteen features, divided by the broadcast 16. -/
theorem mean_at (x0 : (⟨S1x50000x16x1, .f32⟩ : BufTy).Contents (Elt Ideal)) (x1 : (⟨S2x50000x16, .f32⟩ : BufTy).Contents (Elt Ideal))
    (x2 : (⟨S256x4, .f32⟩ : BufTy).Contents (Elt Ideal)) (o : Fin 256) (n : Fin 50000) :
    Read.val_main_v15 (F := Ideal) x0 x1 x2 (ix4 (0 : Fin 1) o n (0 : Fin 1)) = mean16 (yRow x0 x1 x2 o n) := by
  rw [Read.val_main_v15_apply, Read.val_main_v13_apply, Read.val_main_v12_apply, Read.val_main_v14_apply,
    Read.val_main_cst_apply, Read.val_main_cst_0_apply]
  have e : ∀ k : Fin 16, Read.idx_main_v12 (Read.idx_main_v13 (ix4 (0 : Fin 1) o n (0 : Fin 1))) k = ix4 (0 : Fin 1) o n k :=
    fun k => funext fun a => Fin.ext (by match a with | ⟨0, _⟩ => rfl | ⟨1, _⟩ => rfl | ⟨2, _⟩ => rfl | ⟨3, _⟩ => rfl)
  simp only [e, Ideal.hostDivf_def, Ideal.ofBits_def, Ideal.ofBits_zero_f32, zero_add]
  rfl

/-- A feature less the mean of its row (the first of the two places the reference forms it). -/
theorem centred_at (x0 : (⟨S1x50000x16x1, .f32⟩ : BufTy).Contents (Elt Ideal)) (x1 : (⟨S2x50000x16, .f32⟩ : BufTy).Contents (Elt Ideal))
    (x2 : (⟨S256x4, .f32⟩ : BufTy).Contents (Elt Ideal)) (o : Fin 256) (n : Fin 50000) (h : Fin 16) :
    Read.val_main_v17 (F := Ideal) x0 x1 x2 (ix4 (0 : Fin 1) o n h)
      = yRow x0 x1 x2 o n h - mean16 (yRow x0 x1 x2 o n) := by
  rw [Read.val_main_v17_apply, Read.val_main_v16_apply]
  have e : Read.idx_main_v16 (ix4 (0 : Fin 1) o n h) = ix4 (0 : Fin 1) o n (0 : Fin 1) :=
    funext fun a => Fin.ext (by match a with | ⟨0, _⟩ => rfl | ⟨1, _⟩ => rfl | ⟨2, _⟩ => rfl | ⟨3, _⟩ => rfl)
  rw [e, mean_at]
  rfl

/-- The inverse standard deviation: `rsqrt` of the mean of the squared centred features plus ε. -/
theorem invStd_at (x0 : (⟨S1x50000x16x1, .f32⟩ : BufTy).Contents (Elt Ideal)) (x1 : (⟨S2x50000x16, .f32⟩ : BufTy).Contents (Elt Ideal))
    (x2 : (⟨S256x4, .f32⟩ : BufTy).Contents (Elt Ideal)) (o : Fin 256) (n : Fin 50000) :
    Read.val_main_v27 (F := Ideal) x0 x1 x2 (ix4 (0 : Fin 1) o n (0 : Fin 1)) = invStd (yRow x0 x1 x2 o n) := by
  rw [Read.val_main_v27_apply, Read.val_main_v26_apply, Read.val_main_v22_apply, Read.val_main_v20_apply,
    Read.val_main_v19_apply, Read.val_main_v21_apply, Read.val_main_v25_apply, Read.val_main_cst_1_apply,
    Read.val_main_cst_2_apply, Read.val_main_cst_3_apply]
  have e : ∀ k : Fin 16, Read.idx_main_v19 (Read.idx_main_v20 (ix4 (0 : Fin 1) o n (0 : Fin 1))) k = ix4 (0 : Fin 1) o n k :=
    fun k => funext fun a => Fin.ext (by match a with | ⟨0, _⟩ => rfl | ⟨1, _⟩ => rfl | ⟨2, _⟩ => rfl | ⟨3, _⟩ => rfl)
  simp only [e, Read.val_main_v18_apply, centred_at, Ideal.hostDivf_def, Ideal.hostUnary_rsqrt_def, Ideal.addf_def,
    Ideal.mulf_def, Ideal.ofBits_def, Ideal.ofBits_zero_f32, zero_add]
  rfl

/-- The normalised, scaled and shifted feature before the rectifier. -/
theorem affine_at (x0 : (⟨S1x50000x16x1, .f32⟩ : BufTy).Contents (Elt Ideal)) (x1 : (⟨S2x50000x16, .f32⟩ : BufTy).Contents (Elt Ideal))
    (x2 : (⟨S256x4, .f32⟩ : BufTy).Contents (Elt Ideal)) (x3 x4 : (⟨S16, .f32⟩ : BufTy).Contents (Elt Ideal)) (o : Fin 256) (n : Fin 50000) (h : Fin 16) :
    Read.val_main_v35 (F := Ideal) x0 x1 x2 x3 x4 (ix4 (0 : Fin 1) o n h)
      = (yRow x0 x1 x2 o n h - mean16 (yRow x0 x1 x2 o n)) * invStd (yRow x0 x1 x2 o n) * vec16 x3 h + vec16 x4 h := by
  rw [Read.val_main_v35_apply, Read.val_main_v32_apply, Read.val_main_v29_apply, Read.val_main_v24_apply,
    Read.val_main_v23_apply, Read.val_main_v28_apply, Read.val_main_v31_apply, Read.val_main_v30_apply,
    Read.val_main_v34_apply, Read.val_main_v33_apply]
  have e23 : Read.idx_main_v23 (ix4 (0 : Fin 1) o n h) = ix4 (0 : Fin 1) o n (0 : Fin 1) :=
    funext fun a => Fin.ext (by match a with | ⟨0, _⟩ => rfl | ⟨1, _⟩ => rfl | ⟨2, _⟩ => rfl | ⟨3, _⟩ => rfl)
  have e28 : Read.idx_main_v28 (ix4 (0 : Fin 1) o n h) = ix4 (0 : Fin 1) o n (0 : Fin 1) :=
    funext fun a => Fin.ext (by match a with | ⟨0, _⟩ => rfl | ⟨1, _⟩ => rfl | ⟨2, _⟩ => rfl | ⟨3, _⟩ => rfl)
  have e3 : Read.idx_main_v30 (Read.idx_main_v31 (ix4 (0 : Fin 1) o n h)) = ix1 h :=
    funext fun a => Fin.ext (by match a with | ⟨0, _⟩ => rfl)
  have e4 : Read.idx_main_v33 (Read.idx_main_v34 (ix4 (0 : Fin 1) o n h)) = ix1 h :=
    funext fun a => Fin.ext (by match a with | ⟨0, _⟩ => rfl)
  rw [e23, e28, e3, e4, mean_at, invStd_at]
  rfl

/-- One entry after LeakyReLU: the specification's `normEntry` of the row's features. -/
theorem entry_at (x0 : (⟨S1x50000x16x1, .f32⟩ : BufTy).Contents (Elt Ideal)) (x1 : (⟨S2x50000x16, .f32⟩ : BufTy).Contents (Elt Ideal))
    (x2 : (⟨S256x4, .f32⟩ : BufTy).Contents (Elt Ideal)) (x3 x4 : (⟨S16, .f32⟩ : BufTy).Contents (Elt Ideal)) (o : Fin 256) (n : Fin 50000) (h : Fin 16) :
    Read.val_main_v40 (F := Ideal) x0 x1 x2 x3 x4 (ix4 (0 : Fin 1) o n h)
      = normEntry (yRow x0 x1 x2 o n) (vec16 x3) (vec16 x4) h := by
  rw [Read.val_main_v40_apply, Read.val_main_v37_apply, Read.val_main_v39_apply, Read.val_main_v36_apply,
    Read.val_main_v38_apply, Read.val_main_cst_4_apply, Read.val_main_cst_5_apply, affine_at]
  rfl

/-- A reduced position `(0, o, n)` with neighbour `k` put back on the last axis is `(0, o, n, k)`. -/
theorem lift_at (hr : S1x256x50000x16.Reduces [3] S1x256x50000) (o : Fin 256) (n : Fin 50000)
    (k : Fin (S1x256x50000x16.size 3)) :
    hr.lift (ix3 (0 : Fin 1) o n) k = ix4 (0 : Fin 1) o n (⟨k.val, k.isLt⟩ : Fin 16) := by
  funext c; apply Fin.ext
  fin_cases c <;> rfl

/-- The maximum over the neighbours from `-∞`: the specification's `normMax` of the row's features. -/
theorem max_at (x0 : (⟨S1x50000x16x1, .f32⟩ : BufTy).Contents (Elt Ideal)) (x1 : (⟨S2x50000x16, .f32⟩ : BufTy).Contents (Elt Ideal))
    (x2 : (⟨S256x4, .f32⟩ : BufTy).Contents (Elt Ideal)) (x3 x4 : (⟨S16, .f32⟩ : BufTy).Contents (Elt Ideal)) (o : Fin 256) (n : Fin 50000) :
    Read.val_main_v41 (F := Ideal) x0 x1 x2 x3 x4 (ix3 (0 : Fin 1) o n)
      = normMax (yRow x0 x1 x2 o n) (vec16 x3) (vec16 x4) := by
  unfold Read.val_main_v41
  have hr : S1x256x50000x16.Reduces [3] S1x256x50000 := by decide
  refine (Host.reduce_eq_fold_single FloatOps.maximumf _ _ reducesTo_S1x256x50000x16_S1x256x50000_d3 hr h_S_ _).trans ?_
  have hf : (Read.val_main_v40 (F := Ideal) x0 x1 x2 x3 x4 ∘ hr.lift (ix3 (0 : Fin 1) o n))
      = normEntry (yRow x0 x1 x2 o n) (vec16 x3) (vec16 x4) :=
    funext fun k => (congrArg (Read.val_main_v40 (F := Ideal) x0 x1 x2 x3 x4) (lift_at hr o n k)).trans
      (entry_at x0 x1 x2 x3 x4 o n _)
  rw [hf]
  rfl

/-- The reference's last stage, as an array, is the specification's reference array: at `(0, 0, n, o)` the broadcast and
    the final transpose read the maximum at `(0, o, n)`, which is `normMax` of the reference feature. -/
theorem val_eq (x0 : (⟨S1x50000x16x1, .f32⟩ : BufTy).Contents (Elt Ideal)) (x1 : (⟨S2x50000x16, .f32⟩ : BufTy).Contents (Elt Ideal))
    (x2 : (⟨S256x4, .f32⟩ : BufTy).Contents (Elt Ideal)) (x3 x4 : (⟨S16, .f32⟩ : BufTy).Contents (Elt Ideal)) :
    Read.val_main_v43 (F := Ideal) x0 x1 x2 x3 x4 = arrR x0 x1 x2 x3 x4 := by
  funext i
  obtain ⟨a, b, n, o, rfl⟩ : ∃ (a : Fin 1) (b : Fin 1) (n : Fin 50000) (o : Fin 256), i = ix4 a b n o :=
    ⟨i 0, i 1, i 2, i 3, eq_ix4 i⟩
  obtain rfl : a = 0 := Subsingleton.elim _ _
  obtain rfl : b = 0 := Subsingleton.elim _ _
  rw [Read.val_main_v43_apply, Read.val_main_v42_apply]
  have e : Read.idx_main_v42 (Read.idx_main_v43 (ix4 (0 : Fin 1) (0 : Fin 1) n o)) = ix3 (0 : Fin 1) o n :=
    funext fun a => Fin.ext (by match a with | ⟨0, _⟩ => rfl | ⟨1, _⟩ => rfl | ⟨2, _⟩ => rfl)
  rw [e, max_at, yRow_eq]
  rfl

/-- The reference's run ends with the specification's reference array of the five arguments' launch contents. -/
theorem result_eq (m : (ℓ : Loc nD τ sig) → Buf (Elt Ideal) ℓ) (c : Dev nD) :
    Cert.ReferenceIdeal.Value.res_out0 (F := Ideal) m c
      = Cert.EdgeNorm.arrR (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  (Read.val_main_v43_eq m c).trans (val_eq _ _ _ _ _)

end Cert.ReferenceIdeal.RefValue

end
-- ==== Proof.FeatureLaw.lean ====
/-
  The one algebraic law between the two edge features.

  The kernel's feature multiplies the coordinate difference by the sum of the two middle weights; the reference's
  feature adds the two products.  On the extended reals `d * (a + b) = a * d + b * d` is false in general (take
  `d = ⊤`, `a = 1`, `b = -1`), and true when `d`, `a`, `b` are real numbers, where it is the distributive law of `ℝ`
  carried through the coercion.  The other two products only change the order of their factors, and the four summands
  are re-bracketed: commutativity of the product and associativity of the sum hold for all extended reals.
-/
import proofs.«172504_j29317446762758_1_alg».proof.Proof.Spec

noncomputable section

namespace Cert.EdgeNorm

open Idealize.ShloMosaic Idealize.ShloMosaic.ValueIdx

/-- The difference of two real numbers, taken in the extended reals, is a real number. -/
theorem real_sub_real (u v : EReal) (hu : ∃ r : ℝ, u = (r : EReal)) (hv : ∃ r : ℝ, v = (r : EReal)) :
    ∃ r : ℝ, u - v = (r : EReal) := by
  obtain ⟨a, rfl⟩ := hu
  obtain ⟨b, rfl⟩ := hv
  exact ⟨a - b, (EReal.coe_sub a b).symm⟩

/-- Distributivity for real numbers inside the extended reals: a real factor times the sum of two real numbers is the
    sum of the two products (written with the factor on the right, as the reference writes them). -/
theorem real_mul_add (d a b : EReal) (hd : ∃ r : ℝ, d = (r : EReal)) (ha : ∃ r : ℝ, a = (r : EReal))
    (hb : ∃ r : ℝ, b = (r : EReal)) : d * (a + b) = a * d + b * d := by
  obtain ⟨d, rfl⟩ := hd
  obtain ⟨a, rfl⟩ := ha
  obtain ⟨b, rfl⟩ := hb
  rw [← EReal.coe_add, ← EReal.coe_mul, ← EReal.coe_mul, ← EReal.coe_mul, ← EReal.coe_add, mul_add, mul_comm d a,
    mul_comm d b]

/-- The kernel's edge feature (coordinate difference times the SUM of the two middle weights) is the reference's edge
    feature (the four channel products summed), neighbour by neighbour, as soon as the coordinates and the two middle
    weights are real numbers.  The value row `xr` and the outer weights `w 0`, `w 3` may be any extended reals. -/
theorem featK_eq_featR (xr cr : Fin 16 → EReal) (w : Fin 4 → EReal)
    (hc : ∀ h, ∃ r : ℝ, cr h = (r : EReal)) (h1 : ∃ r : ℝ, w 1 = (r : EReal)) (h2 : ∃ r : ℝ, w 2 = (r : EReal)) :
    featK xr cr (w 0) (w 1) (w 2) (w 3) = featR xr cr w := by
  funext h
  have hd : ∃ r : ℝ, cr h - cr 0 = (r : EReal) := real_sub_real _ _ (hc h) (hc 0)
  unfold featK feat3 featR
  rw [Fin.sum_univ_four]
  show (xr h - xr 0) * w 0 + (cr h - cr 0) * (w 1 + w 2) + xr 0 * w 3
      = w 0 * (xr h - xr 0) + w 1 * (cr h - cr 0) + w 2 * (cr h - cr 0) + w 3 * xr 0
  rw [real_mul_add _ _ _ hd h1 h2, mul_comm (xr h - xr 0) (w 0), mul_comm (xr 0) (w 3), ← add_assoc]

/-- At every row and output channel the kernel's result is the reference's: the two features agree by
    `featK_eq_featR` (the coordinates and the weights are real), and everything after the feature is the same function. -/
theorem outK_eq_outR (x : SX.Idx → EReal) (c : SC.Idx → EReal) (W : SW.Idx → EReal) (g b : SV.Idx → EReal)
    (hc : ∀ i, ∃ r : ℝ, c i = (r : EReal)) (hW : ∀ i, ∃ r : ℝ, W i = (r : EReal)) (n : Fin 50000) (o : Fin 256) :
    outK x c W g b n o = outR x c W g b n o :=
  congrArg (fun y => normMax y (vec16 g) (vec16 b))
    (featK_eq_featR (rowX x n) (rowC c n) (fun k => W (ix2 o k)) (fun h => hc (ix3 (0 : Fin 2) n h))
      (hW (ix2 o (1 : Fin 4))) (hW (ix2 o (2 : Fin 4))))

/-- The two results agree as whole arrays of shape [1, 1, 50000, 256]. -/
theorem arrK_eq_arrR (x : SX.Idx → EReal) (c : SC.Idx → EReal) (W : SW.Idx → EReal) (g b : SV.Idx → EReal)
    (hc : ∀ i, ∃ r : ℝ, c i = (r : EReal)) (hW : ∀ i, ∃ r : ℝ, W i = (r : EReal)) :
    arrK x c W g b = arrR x c W g b := by
  funext i
  exact outK_eq_outR x c W g b hc hW (i 2) (i 3)

end Cert.EdgeNorm

end
-- ==== Proof.LibFiniteEntry.lean ====
/-
  "The absolute value is below +∞" makes an extended real a real number.

  A test that an array holds finite numbers compares, entry by entry, the absolute value `max v (-v)` with the float
  word `0x7F800000`, which is `+∞` (all exponent bits set, zero fraction, sign clear). An extended real whose absolute
  value is below `⊤` is neither `⊤` (whose absolute value is `⊤`) nor `⊥` (likewise): it is a real number.
-/
import Idealize.ShloMosaic.PureOps.Ideal.Laws

noncomputable section

namespace Cert.FiniteEntry

open Idealize.ShloMosaic

/-- The word the test compares against is `+∞`. -/
theorem inf_word : Ideal.ofBits .f32 0x7F800000#32 = (⊤ : EReal) := by simp [Ideal.ofBits, Ideal.ieee]

/-- An extended real whose absolute value is below `+∞` is a real number. -/
theorem real_of_abs_lt_top (v : EReal) (h : max v (-v) < ⊤) : ∃ r : ℝ, v = r := by
  induction v using EReal.rec with
  | bot => exact absurd h (by simp)
  | coe r => exact ⟨r, rfl⟩
  | top => exact absurd h (by simp)

/-- One entry's test `|v| < +∞` being true (the comparison's bit is 1) makes the entry a real number. -/
theorem real_of_test (v : EReal) (h : Ideal.cmp .olt (max v (-v)) (Ideal.ofBits .f32 0x7F800000#32) = 1#1) :
    ∃ r : ℝ, v = r := by
  rw [inf_word] at h
  refine real_of_abs_lt_top v ?_
  by_contra hn
  simp [Ideal.cmp, hn] at h

end Cert.FiniteEntry

end
-- ==== Proof.FiniteArgs.lean ====
/-
  From the precondition to "every coordinate and every weight is a real number".

  The precondition is the conjunction of five tests, one per argument array: every entry's absolute value is below
  `+∞`.  Each test is an `and` over all entries (from the constant 1) of the entry-wise comparison of `|v|` with the
  float word of `+∞`; the five results are joined by `and`.  A one-bit `and` that is 1 has both operands 1, an `and`
  over all entries that is 1 met only 1s, and an entry whose test is 1 is neither `+∞` nor `-∞`: a real number.
-/
import proofs.«172504_j29317446762758_1_alg».proof.Defs
import proofs.«172504_j29317446762758_1_alg».proof.Proof.LibFiniteEntry
import Idealize.ShloMosaic.Lib.ReduceAll

noncomputable section

namespace Cert.KernelIdeal.FiniteArgs

open Cert.KernelIdeal Idealize.ShloMosaic Idealize.ShloMosaic.TcCoe Idealize.SL.Sem

/-- The shape of a scalar has exactly one index. -/
instance scalarIdx_subsingleton : Subsingleton Cert.Pre_finite_inputs.S_.Idx := ⟨fun a b => funext fun d => d.elim0⟩

/-- One argument's test: if the `and` over all entries of "`|x i| < +∞`" is 1, every entry of `x` is a real number. -/
theorem all_real_of_test {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x)
            (broadcastInDim s ![] hb (constant (F := Ideal) Cert.Pre_finite_inputs.S_ .f32 0x7F800000#32)))
          init hr hu j = 1#1)
    (i : s.Idx) : ∃ r : ℝ, x i = (r : EReal) :=
  Cert.FiniteEntry.real_of_test (x i) (Host.reduce_andi_all _ init hr hu j e i)

/-- The precondition, read: when the printed predicate is 1, all five argument arrays hold only real numbers. -/
theorem args_real [Cert.Pre_finite_inputs.Facts]
    (a0 : FVec Ideal Cert.Pre_finite_inputs.S1x50000x16x1 .f32) (a1 : FVec Ideal Cert.Pre_finite_inputs.S2x50000x16 .f32)
    (a2 : FVec Ideal Cert.Pre_finite_inputs.S256x4 .f32) (a3 a4 : FVec Ideal Cert.Pre_finite_inputs.S16 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h (fun a => a.elim0)
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real_of_test a0 _ _ _ _ _ e0, all_real_of_test a1 _ _ _ _ _ e1, all_real_of_test a2 _ _ _ _ _ e2,
    all_real_of_test a3 _ _ _ _ _ e3, all_real_of_test a4 _ _ _ _ _ e4⟩

/-- Under the precondition every entry of the coordinate array (the second argument) is a real number. -/
theorem coords_real [Cert.Pre_finite_inputs.Facts] (m : (ℓ : Loc nD τ sig) → Buf (Elt Ideal) ℓ)
    (hpre : Cert.Pre_KernelIdeal m) (c : Dev nD) (i : S2x50000x16.Idx) :
    ∃ r : ℝ, m ((c.tc : Thread nD τ).loc main_arg1) i = (r : EReal) :=
  (args_real _ _ _ _ _ (hpre c)).2.1 i

/-- Under the precondition every entry of the weight array (the third argument) is a real number. -/
theorem weights_real [Cert.Pre_finite_inputs.Facts] (m : (ℓ : Loc nD τ sig) → Buf (Elt Ideal) ℓ)
    (hpre : Cert.Pre_KernelIdeal m) (c : Dev nD) (i : S256x4.Idx) :
    ∃ r : ℝ, m ((c.tc : Thread nD τ).loc main_arg2) i = (r : EReal) :=
  (args_real _ _ _ _ _ (hpre c)).2.2.1 i

end Cert.KernelIdeal.FiniteArgs

end
-- ==== Proof.lean ====
/-
  The proof of `Cert.Claim`: the word-level kernel and its idealization run to the end, fault nowhere and leave their
  arguments unchanged; so does the reference; the idealization rewrote nothing, so there is nothing to preserve; and at
  the extended reals the idealized kernel and the idealized reference, run from memories that agree on the five
  arguments, end with the same result array.

  The last claim in one line: the kernel ends with `EdgeNorm.arrK` of the arguments and the reference with
  `EdgeNorm.arrR`; the two differ only in that the kernel multiplies the coordinate difference by the sum of two weights
  where the reference adds the two products, and under the precondition the coordinates and the weights are real
  numbers, for which multiplication distributes over addition.
-/
import proofs.«172504_j29317446762758_1_alg».proof.Defs
import proofs.«172504_j29317446762758_1_alg».proof.Proof.Gen.Kernel
import proofs.«172504_j29317446762758_1_alg».proof.Proof.Gen.KernelIdeal
import proofs.«172504_j29317446762758_1_alg».proof.Proof.Gen.ReferenceIdeal
import proofs.«172504_j29317446762758_1_alg».proof.Proof.Gen.Pre_finite_inputs
import proofs.«172504_j29317446762758_1_alg».proof.Proof.Gen.ReferenceIdeal.Run
import proofs.«172504_j29317446762758_1_alg».proof.Proof.FrameK
import proofs.«172504_j29317446762758_1_alg».proof.Proof.ValueKI
import proofs.«172504_j29317446762758_1_alg».proof.Proof.RefSide
import proofs.«172504_j29317446762758_1_alg».proof.Proof.FeatureLaw
import proofs.«172504_j29317446762758_1_alg».proof.Proof.FiniteArgs

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- The reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with one result array. -/
theorem algebraic : Cert.algebraic_KernelIdeal_ReferenceIdeal := by
  intro m ρ m' ρ' hpre hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  rw [(hagree c).1, (hagree c).2.1, (hagree c).2.2.1, (hagree c).2.2.2.1, (hagree c).2.2.2.2]
  exact (Cert.EdgeNorm.arrK_eq_arrR _ _ _ _ _ (Cert.KernelIdeal.FiniteArgs.coords_real m hpre c)
    (Cert.KernelIdeal.FiniteArgs.weights_real m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
